-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x512x4x4 : Shape := ⟨5, ![4, 1024, 512, 4, 4]⟩
abbrev S128x2048 : Shape := ⟨2, ![128, 2048]⟩
abbrev S128x101 : Shape := ⟨2, ![128, 101]⟩
abbrev S128 : Shape := ⟨1, ![128]⟩
abbrev S_ : Shape := ⟨0, ![]⟩

class Facts : Prop where
  bcast_S_S4x1024x512x4x4 : S_.BroadcastsInDim S4x1024x512x4x4 (![] : Fin 0 → Fin S4x1024x512x4x4.rank)
  reducesTo_S4x1024x512x4x4_S_d0_1_2_3_4 : S4x1024x512x4x4.ReducesTo [0, 1, 2, 3, 4] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S128x101 : S_.BroadcastsInDim S128x101 (![] : Fin 0 → Fin S128x101.rank)
  reducesTo_S128x101_S_d0_1 : S128x101.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x101 1) : IVec S_ 1 :=
  let main_c_5 : IVec S_ 1 := constantI S_ 1 1#1
  let main_v17 : IVec S_ 1 := (fun x v => Host.reduce IntOp.andi x v reducesTo_S128x101_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x1024x512x4x4 .f32) (main_arg1 : FVec F S4x1024x512x4x4 .f32) (main_arg2 : FVec F S128x2048 .f32) (main_arg3 : FVec F S128x101 .f32) (main_arg4 : FVec F S128 .f32) : IVec S_ 1 :=
  let main_v0 : FVec F S4x1024x512x4x4 .f32 := Host.absf main_arg0
  let main_cst : FVec F S_ .f32 := constant S_ .f32 0x7F800000#32
  let main_v1 : FVec F S4x1024x512x4x4 .f32 := broadcastInDim S4x1024x512x4x4 ![] bcast_S_S4x1024x512x4x4 main_cst
  let main_v2 : IVec S4x1024x512x4x4 1 := cmpf .olt main_v0 main_v1
  let main_c : IVec S_ 1 := constantI S_ 1 1#1
  let main_v3 : IVec S_ 1 := (fun x v => Host.reduce IntOp.andi x v reducesTo_S4x1024x512x4x4_S_d0_1_2_3_4 h_S_) main_v2 main_c
  let main_v4 : FVec F S4x1024x512x4x4 .f32 := Host.absf main_arg1
  let main_cst_0 : FVec F S_ .f32 := constant S_ .f32 0x7F800000#32
  let main_v5 : FVec F S4x1024x512x4x4 .f32 := broadcastInDim S4x1024x512x4x4 ![] bcast_S_S4x1024x512x4x4 main_cst_0
  let main_v6 : IVec S4x1024x512x4x4 1 := cmpf .olt main_v4 main_v5
  let main_c_1 : IVec S_ 1 := constantI S_ 1 1#1
  let main_v7 : IVec S_ 1 := (fun x v => Host.reduce IntOp.andi x v reducesTo_S4x1024x512x4x4_S_d0_1_2_3_4 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x101 .f32 := Host.absf main_arg3
  let main_cst_4 : FVec F S_ .f32 := constant S_ .f32 0x7F800000#32
  let main_v15 : FVec F S128x101 .f32 := broadcastInDim S128x101 ![] bcast_S_S128x101 main_cst_4
  let main_v16 : IVec S128x101 1 := cmpf .olt main_v14 main_v15
  fn_part1 (F := F) main_arg4 main_v13 main_v16
-- ==== Kernel.lean ====
abbrev S4x1024x512x4x4 : Shape := ⟨5, ![4, 1024, 512, 4, 4]⟩
abbrev S128x2048 : Shape := ⟨2, ![128, 2048]⟩
abbrev S128x101 : Shape := ⟨2, ![128, 101]⟩
abbrev S128 : Shape := ⟨1, ![128]⟩
abbrev S_ : Shape := ⟨0, ![]⟩
abbrev S4x1024x512 : Shape := ⟨3, ![4, 1024, 512]⟩
abbrev S128x1024 : Shape := ⟨2, ![128, 1024]⟩
abbrev S4x512x128 : Shape := ⟨3, ![4, 512, 128]⟩
abbrev S1x128x512 : Shape := ⟨3, ![1, 128, 512]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S512x101 : Shape := ⟨2, ![512, 101]⟩
abbrev S1x128 : Shape := ⟨2, ![1, 128]⟩

abbrev nBuf : Space → Nat
  | .hbm => 19
  | .vmem => 17
  | .smem => 0
  | _ => 0

abbrev bufTy : (tb : Table) → Fin (tcTables nBuf tb) → BufTy
  | .hbm, ⟨0, _⟩ => ⟨S4x1024x512x4x4, .f32⟩
  | .hbm, ⟨1, _⟩ => ⟨S4x1024x512x4x4, .f32⟩
  | .hbm, ⟨2, _⟩ => ⟨S128x2048, .f32⟩
  | .hbm, ⟨3, _⟩ => ⟨S128x101, .f32⟩
  | .hbm, ⟨4, _⟩ => ⟨S128, .f32⟩
  | .hbm, ⟨5, _⟩ => ⟨S_, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S_, .f32⟩
  | .hbm, ⟨11, _⟩ => ⟨S4x1024x512, .f32⟩
  | .hbm, ⟨12, _⟩ => ⟨S_, .f32⟩
  | .hbm, ⟨13, _⟩ => ⟨S4x1024x512, .f32⟩
  | .hbm, ⟨14, _⟩ => ⟨S4x1024x512, .f32⟩
  | .hbm, ⟨15, _⟩ => ⟨S128x1024, .f32⟩
  | .hbm, ⟨16, _⟩ => ⟨S128x1024, .f32⟩
  | .hbm, ⟨17, _⟩ => ⟨S4x512x128, .f32⟩
  | .hbm, ⟨18, _⟩ => ⟨S4x512x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x512x128, .f32⟩
  | .local _ .vmem, ⟨9, _⟩ => ⟨S1x512x128, .f32⟩
  | .local _ .vmem, ⟨10, _⟩ => ⟨S512x128, .f32⟩
  | .local _ .vmem, ⟨11, _⟩ => ⟨S1x512x128, .f32⟩
  | .local _ .vmem, ⟨12, _⟩ => ⟨S1x512x128, .f32⟩
  | .local _ .vmem, ⟨13, _⟩ => ⟨S128x101, .f32⟩
  | .local _ .vmem, ⟨14, _⟩ => ⟨S128, .f32⟩
  | .local _ .vmem, ⟨15, _⟩ => ⟨S1x512x128, .f32⟩
  | .local _ .vmem, ⟨16, _⟩ => ⟨S1x512x128, .f32⟩
  | _, _ => ⟨S4x1024x512x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_15 : BitVec 32 := 0#32
  let v25 : BitVec 1 := Scalar.cmpi .ne v24 c0_i32_15
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x101 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S4x1024x512x4x4_S4x1024x512_d3_4 : S4x1024x512x4x4.ReducesTo [3, 4] S4x1024x512
  h_S_ : 0 < S_.numel
  bcast_S_S4x1024x512 : S_.BroadcastsInDim S4x1024x512 (![] : Fin 0 → Fin S4x1024x512.rank)
  slices_S128x2048_S128x1024_0_0 : S128x2048.Slices ![0, 0] S128x1024
  slices_S128x2048_S128x1024_0_1024 : S128x2048.Slices ![0, 1024] S128x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  reduces_S512x128_S512 : S512x128.Reduces [1] S512
  shapeCasts_S512_S512x1 : S512.ShapeCasts S512x1
  broadcasts_S512x1_S512x128 : S512x1.Broadcasts S512x128
  iota_S512x1_d0_w32 : S512x1.Iotas .tc 32 [0]
  rotates_S512x128_d0 : S512x128.Rotates 0 none
  concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x101_d1 : Shape.Concatenates (S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: []) S512x101 1
  inb_S128x101_S128x101_0_0 : ∀ a, (![0, 0] : Fin 2 → Nat) a + S128x101.size a ≤ S128x101.size a
  h_S128x101 : 0 < S128x101.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  dot_S128x512_S128x128_S512x128_0_1_1_0_n_n_wf : DotDims.WF S128x512 S128x128 S512x128 [0] [1] [1] [0] [] []
  dot_S512x101_S128x101_S512x128_1_1_0_0_n_n_wf : DotDims.WF S512x101 S128x101 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x1024x512.size a
  hwx0_0 : ∀ i : grid0.Coords, EltTy.bits .f32 = 32 ∨ (Rect.block (s := S4x1024x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x1024x512.size a
  hwx0_1 : ∀ i : grid0.Coords, EltTy.bits .f32 = 32 ∨ (Rect.block (s := S4x1024x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x1024.size a
  hwx0_2 : ∀ i : grid0.Coords, EltTy.bits .f32 = 32 ∨ (Rect.block (s := S128x1024) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x1024.size a
  hwx0_3 : ∀ i : grid0.Coords, EltTy.bits .f32 = 32 ∨ (Rect.block (s := S128x1024) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S4x512x128.size a
  hwx0_4 : ∀ i : grid0.Coords, EltTy.bits .f32 = 32 ∨ (Rect.block (s := S4x512x128) S1x512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x512x128.size a
  hwx1_0 : ∀ i : grid1.Coords, EltTy.bits .f32 = 32 ∨ (Rect.block (s := S4x512x128) S1x512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x101.size a ≤ S128x101.size a
  hwx1_1 : ∀ i : grid1.Coords, EltTy.bits .f32 = 32 ∨ (Rect.block (s := S128x101) S128x101.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x512x128.size a
  hwx1_3 : ∀ i : grid1.Coords, EltTy.bits .f32 = 32 ∨ (Rect.block (s := S4x512x128) S1x512x128.size (cc1_transform_3 i) (hinb1_3 i)).WholeWords (EltTy.packing .f32)

variable [Facts₀]

def dot_S128x512_S128x128_S512x128_0_1_1_0_n_n : DotDims S128x512 S128x128 S512x128 where
  lhsContracting := [0]
  rhsContracting := [1]
  lhsNonContracting := [1]
  rhsNonContracting := [0]
  lhsBatch := []
  rhsBatch := []
  wf := dot_S128x512_S128x128_S512x128_0_1_1_0_n_n_wf
def dot_S512x101_S128x101_S512x128_1_1_0_0_n_n : DotDims S512x101 S128x101 S512x128 where
  lhsContracting := [1]
  rhsContracting := [1]
  lhsNonContracting := [0]
  rhsNonContracting := [0]
  lhsBatch := []
  rhsBatch := []
  wf := dot_S512x101_S128x101_S512x128_1_1_0_0_n_n_wf

abbrev win0_0 : Pipeline.Window sig grid0 :=
  Pipeline.Window.ofSpec (Memref.whole main_v2) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v8) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x101.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x1024x512x4x4 : Shape := ⟨5, ![4, 1024, 512, 4, 4]⟩
abbrev S128x2048 : Shape := ⟨2, ![128, 2048]⟩
abbrev S128x101 : Shape := ⟨2, ![128, 101]⟩
abbrev S128 : Shape := ⟨1, ![128]⟩
abbrev S_ : Shape := ⟨0, ![]⟩
abbrev S4x1024x512 : Shape := ⟨3, ![4, 1024, 512]⟩
abbrev S4x2048x512 : Shape := ⟨3, ![4, 2048, 512]⟩
abbrev S4x512x2048 : Shape := ⟨3, ![4, 512, 2048]⟩
abbrev S4x512x128 : Shape := ⟨3, ![4, 512, 128]⟩
abbrev S4x512 : Shape := ⟨2, ![4, 512]⟩
abbrev S4x512x1 : Shape := ⟨3, ![4, 512, 1]⟩
abbrev S4x512x512 : Shape := ⟨3, ![4, 512, 512]⟩
abbrev S4x512x612 : Shape := ⟨3, ![4, 512, 612]⟩
abbrev S512 : Shape := ⟨1, ![512]⟩
abbrev S512x1 : Shape := ⟨2, ![512, 1]⟩
abbrev S101 : Shape := ⟨1, ![101]⟩
abbrev S1x101 : Shape := ⟨2, ![1, 101]⟩
abbrev S512x101 : Shape := ⟨2, ![512, 101]⟩
abbrev S512x101x1 : Shape := ⟨3, ![512, 101, 1]⟩
abbrev S512x101x2 : Shape := ⟨3, ![512, 101, 2]⟩
abbrev S4x512x101 : Shape := ⟨3, ![4, 512, 101]⟩
abbrev S1x1x128 : Shape := ⟨3, ![1, 1, 128]⟩

abbrev nBuf : Space → Nat
  | .hbm => 65
  | .vmem => 0
  | .smem => 0
  | _ => 0

abbrev bufTy : (tb : Table) → Fin (tcTables nBuf tb) → BufTy
  | .hbm, ⟨0, _⟩ => ⟨S4x1024x512x4x4, .f32⟩
  | .hbm, ⟨1, _⟩ => ⟨S4x1024x512x4x4, .f32⟩
  | .hbm, ⟨2, _⟩ => ⟨S128x2048, .f32⟩
  | .hbm, ⟨3, _⟩ => ⟨S128x101, .f32⟩
  | .hbm, ⟨4, _⟩ => ⟨S128, .f32⟩
  | .hbm, ⟨5, _⟩ => ⟨S_, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S_, .f32⟩
  | .hbm, ⟨11, _⟩ => ⟨S4x1024x512, .f32⟩
  | .hbm, ⟨12, _⟩ => ⟨S_, .f32⟩
  | .hbm, ⟨13, _⟩ => ⟨S4x1024x512, .f32⟩
  | .hbm, ⟨14, _⟩ => ⟨S4x1024x512, .f32⟩
  | .hbm, ⟨15, _⟩ => ⟨S4x2048x512, .f32⟩
  | .hbm, ⟨16, _⟩ => ⟨S4x512x2048, .f32⟩
  | .hbm, ⟨17, _⟩ => ⟨S4x512x128, .f32⟩
  | .hbm, ⟨18, _⟩ => ⟨S4x512x128, .f32⟩
  | .hbm, ⟨19, _⟩ => ⟨S_, .f32⟩
  | .hbm, ⟨20, _⟩ => ⟨S4x512, .f32⟩
  | .hbm, ⟨21, _⟩ => ⟨S4x512x1, .f32⟩
  | .hbm, ⟨22, _⟩ => ⟨S4x512x1, .f32⟩
  | .hbm, ⟨23, _⟩ => ⟨S_, .f32⟩
  | .hbm, ⟨24, _⟩ => ⟨S4x512x1, .f32⟩
  | .hbm, ⟨25, _⟩ => ⟨S4x512x1, .f32⟩
  | .hbm, ⟨26, _⟩ => ⟨S4x512x128, .f32⟩
  | .hbm, ⟨27, _⟩ => ⟨S4x512x128, .f32⟩
  | .hbm, ⟨28, _⟩ => ⟨S4x512x512, .f32⟩
  | .hbm, ⟨29, _⟩ => ⟨S_, .i32⟩
  | .hbm, ⟨30, _⟩ => ⟨S_, .f32⟩
  | .hbm, ⟨31, _⟩ => ⟨S4x512x612, .f32⟩
  | .hbm, ⟨32, _⟩ => ⟨S512, .i32⟩
  | .hbm, ⟨33, _⟩ => ⟨S512x1, .i32⟩
  | .hbm, ⟨34, _⟩ => ⟨S101, .i32⟩
  | .hbm, ⟨35, _⟩ => ⟨S1x101, .i32⟩
  | .hbm, ⟨36, _⟩ => ⟨S512x101, .i32⟩
  | .hbm, ⟨37, _⟩ => ⟨S512x101, .i32⟩
  | .hbm, ⟨38, _⟩ => ⟨S512x101, .i32⟩
  | .hbm, ⟨39, _⟩ => ⟨S_, .i32⟩
  | .hbm, ⟨40, _⟩ => ⟨S512x1, .i32⟩
  | .hbm, ⟨41, _⟩ => ⟨S512x1, .i1⟩
  | .hbm, ⟨42, _⟩ => ⟨S_, .i32⟩
  | .hbm, ⟨43, _⟩ => ⟨S512x1, .i32⟩
  | .hbm, ⟨44, _⟩ => ⟨S512x1, .i32⟩
  | .hbm, ⟨45, _⟩ => ⟨S512x1, .i32⟩
  | .hbm, ⟨46, _⟩ => ⟨S_, .i32⟩
  | .hbm, ⟨47, _⟩ => ⟨S512x101, .i32⟩
  | .hbm, ⟨48, _⟩ => ⟨S512x101, .i1⟩
  | .hbm, ⟨49, _⟩ => ⟨S_, .i32⟩
  | .hbm, ⟨50, _⟩ => ⟨S512x101, .i32⟩
  | .hbm, ⟨51, _⟩ => ⟨S512x101, .i32⟩
  | .hbm, ⟨52, _⟩ => ⟨S512x101, .i32⟩
  | .hbm, ⟨53, _⟩ => ⟨S512x101, .i32⟩
  | .hbm, ⟨54, _⟩ => ⟨S512x101x1, .i32⟩
  | .hbm, ⟨55, _⟩ => ⟨S512x101x1, .i32⟩
  | .hbm, ⟨56, _⟩ => ⟨S512x101x2, .i32⟩
  | .hbm, ⟨57, _⟩ => ⟨S4x512x101, .f32⟩
  | .hbm, ⟨58, _⟩ => ⟨S4x512x128, .f32⟩
  | .hbm, ⟨59, _⟩ => ⟨S1x1x128, .f32⟩
  | .hbm, ⟨60, _⟩ => ⟨S4x512x128, .f32⟩
  | .hbm, ⟨61, _⟩ => ⟨S4x512x128, .f32⟩
  | .hbm, ⟨62, _⟩ => ⟨S_, .f32⟩
  | .hbm, ⟨63, _⟩ => ⟨S4x512x128, .f32⟩
  | .hbm, ⟨64, _⟩ => ⟨S4x512x128, .f32⟩
  | _, _ => ⟨S4x1024x512x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  reducesTo_S4x1024x512x4x4_S4x1024x512_d3_4 : S4x1024x512x4x4.ReducesTo [3, 4] S4x1024x512
  h_S_ : 0 < S_.numel
  bcast_S_S4x1024x512 : S_.BroadcastsInDim S4x1024x512 (![] : Fin 0 → Fin S4x1024x512.rank)
  concatenates_S4x1024x512_S4x1024x512_S4x2048x512_d1 : Shape.Concatenates [S4x1024x512, S4x1024x512] S4x2048x512 1
  transposes_S4x2048x512_S4x512x2048_0_2_1 : S4x2048x512.Transposes [0, 2, 1] S4x512x2048
  reducesTo_S4x512x128_S4x512_d2 : S4x512x128.ReducesTo [2] S4x512
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x128_0_1_2 : S4x512x1.BroadcastsInDim S4x512x128 (![0, 1, 2] : Fin 3 → Fin S4x512x128.rank)
  pads_S4x512x512_S4x512x612_000_000_50500 : S4x512x512.Pads (![0, 0, 50] : Fin 3 → Nat) ![0, 0, 50] ![0, 0, 0] S4x512x612
  bcast_S512_S512x1_0 : S512.BroadcastsInDim S512x1 (![0] : Fin 1 → Fin S512x1.rank)
  bcast_S101_S1x101_1 : S101.BroadcastsInDim S1x101 (![1] : Fin 1 → Fin S1x101.rank)
  bcast_S512x1_S512x101_0_1 : S512x1.BroadcastsInDim S512x101 (![0, 1] : Fin 2 → Fin S512x101.rank)
  bcast_S1x101_S512x101_0_1 : S1x101.BroadcastsInDim S512x101 (![0, 1] : Fin 2 → Fin S512x101.rank)
  bcast_S_S512x1 : S_.BroadcastsInDim S512x1 (![] : Fin 0 → Fin S512x1.rank)
  bcast_S_S512x101 : S_.BroadcastsInDim S512x101 (![] : Fin 0 → Fin S512x101.rank)
  bcast_S512x101_S512x101x1_0_1 : S512x101.BroadcastsInDim S512x101x1 (![0, 1] : Fin 2 → Fin S512x101x1.rank)
  concatenates_S512x101x1_S512x101x1_S512x101x2_d2 : Shape.Concatenates [S512x101x1, S512x101x1] S512x101x2 2
  bcast_S128_S1x1x128_2 : S128.BroadcastsInDim S1x1x128 (![2] : Fin 1 → Fin S1x1x128.rank)
  bcast_S1x1x128_S4x512x128_0_1_2 : S1x1x128.BroadcastsInDim S4x512x128 (![0, 1, 2] : Fin 3 → Fin S4x512x128.rank)
  bcast_S_S4x512x128 : S_.BroadcastsInDim S4x512x128 (![] : Fin 0 → Fin S4x512x128.rank)
  dot_S4x512x2048_S128x2048_S4x512x128_2_1_01_0_n_n_wf : DotDims.WF S4x512x2048 S128x2048 S4x512x128 [2] [1] [0, 1] [0] [] []
  dot_S4x512x128_S4x512x128_S4x512x512_2_2_1_1_0_0_wf : DotDims.WF S4x512x128 S4x512x128 S4x512x512 [2] [2] [1] [1] [0] [0]
  gather_S4x512x612_S512x101x2_S4x512x101_0_12_n_n_12_2_411_wf : GatherDims.WF S4x512x612 S512x101x2 S4x512x101 [0] [1, 2] [] [1, 2] [] 2 ![4, 1, 1]
  dot_S4x512x101_S128x101_S4x512x128_2_1_01_0_n_n_wf : DotDims.WF S4x512x101 S128x101 S4x512x128 [2] [1] [0, 1] [0] [] []

variable [Facts₀]

def dot_S4x512x2048_S128x2048_S4x512x128_2_1_01_0_n_n : DotDims S4x512x2048 S128x2048 S4x512x128 where
  lhsContracting := [2]
  rhsContracting := [1]
  lhsNonContracting := [0, 1]
  rhsNonContracting := [0]
  lhsBatch := []
  rhsBatch := []
  wf := dot_S4x512x2048_S128x2048_S4x512x128_2_1_01_0_n_n_wf
def dot_S4x512x128_S4x512x128_S4x512x512_2_2_1_1_0_0 : DotDims S4x512x128 S4x512x128 S4x512x512 where
  lhsContracting := [2]
  rhsContracting := [2]
  lhsNonContracting := [1]
  rhsNonContracting := [1]
  lhsBatch := [0]
  rhsBatch := [0]
  wf := dot_S4x512x128_S4x512x128_S4x512x512_2_2_1_1_0_0_wf
def gather_S4x512x612_S512x101x2_S4x512x101_0_12_n_n_12_2_411 : GatherDims S4x512x612 S512x101x2 S4x512x101 where
  offsetDims := [0]
  collapsedSliceDims := [1, 2]
  operandBatchingDims := []
  startIndicesBatchingDims := []
  startIndexMap := [1, 2]
  indexVectorDim := 2
  sliceSizes := ![4, 1, 1]
  wf := gather_S4x512x612_S512x101x2_S4x512x101_0_12_n_n_12_2_411_wf
def dot_S4x512x101_S128x101_S4x512x128_2_1_01_0_n_n : DotDims S4x512x101 S128x101 S4x512x128 where
  lhsContracting := [2]
  rhsContracting := [1]
  lhsNonContracting := [0, 1]
  rhsNonContracting := [0]
  lhsBatch := []
  rhsBatch := []
  wf := dot_S4x512x101_S128x101_S4x512x128_2_1_01_0_n_n_wf

class Facts : Prop extends Facts₀ where

variable [Facts]
-- ==== Proof.KB.Shared.lean ====
/-
  What the runs of the two kernel bodies are stated over.

  The first kernel walks a 4 × 8 grid (batch, channel tile). Its body resets its accumulator where the tile
  coordinate is 0 (the points ≡ 0 mod 8), adds one tile's two products at every point, and copies the accumulator
  into the output block where the tile coordinate is 7 (the points ≡ 7 mod 8); elsewhere the output block is
  left alone and is not written back. Here: the two branch conditions in closed form over the grid, where the
  output window is idle, and names for the staging and scratch memrefs as the pipeline passes them.
-/
import proofs.«107050_j21998822490744_2_alg».proof.Proof.Gen.Kernel.Launch
import proofs.«107050_j21998822490744_2_alg».proof.Proof.Gen.Kernel.Skeleton
import proofs.«107050_j21998822490744_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's branch conditions -/

/-- "the tile coordinate is 0": the condition of the reset. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "the tile coordinate is 7": the condition of the copy into the output block. -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy is not taken the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is taken the window is live. -/
theorem liveAt0_4 : ∀ t : Fin cfg0.N, cond0_1 (grid0.coords t) → cfg0.idle 4 (grid0.coords t) = false := by decide +kernel

/-! ## The memrefs the bodies are called with -/

abbrev ms0_0 (t : Fin cfg0.N) : Memref sig .tc .vmem S1x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S512x128 .f32 := Memref.whole cc0_scratch0
/-- The accumulator as a view: what it holds is stated through it. -/
abbrev VS0_0 : View sig .tc .vmem S512x128 .f32 := scM0_0.view
/-- One staging buffer of the output window, through which its contents are stated. -/
abbrev VO0_4 : View sig .tc .vmem S1x512x128 .f32 := (Memref.whole cc0_stg4_0 : Memref sig .tc .vmem S1x512x128 .f32).view

/-- The region invariant before the first point, with the accumulator as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, owns_whole]; try rfl

abbrev ms1_0 (t : Fin cfg1.N) : Memref sig .tc .vmem S1x512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x101 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .f32 := win1_3.stage (cfg1.slots t 3)
abbrev hs1_3 (t : Fin cfg1.N) : (ms1_3 t).IsWhole := hstage1_3 ((cfg1.slots t 3).cast nbuf1_3)
/-- One staging buffer of the second kernel's output window. -/
abbrev VO1_3 : View sig .tc .vmem S1x512x128 .f32 := (Memref.whole cc1_stg3_0 : Memref sig .tc .vmem S1x512x128 .f32).view

end Cert.Kernel.Hand

end
-- ==== Proof.KB.Run0A.lean ====
/-
  The first kernel's body at a point where the accumulator is reset (tile coordinate 0): the accumulator may hold anything on entry, is zeroed, and ends at zero plus this tile's two products; the output block is left as found.
  The pieces each buffer ends with are found by running the body; the inputs' blocks come back as they were.
-/
import proofs.«107050_j21998822490744_2_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's stores as pieces (last first), with the proof that on whole memrefs the body runs to the continuation. -/
noncomputable def kernelRun0_A (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) :
    Σ' (L4 : List (View.Piece (Elt F) S1x512x128 .f32)), { LS0 : List (View.Piece (Elt F) S512x128 .f32) //
      ∀ (xi4 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.Run0B.lean ====
/-
  The first kernel's body at a point strictly inside a batch (tile coordinate 1..6): the accumulator ends at what the point before left plus this tile's two products; the output block is left as found.
  The pieces each buffer ends with are found by running the body; the inputs' blocks come back as they were.
-/
import proofs.«107050_j21998822490744_2_alg».proof.Proof.KB.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's stores as pieces (last first), with the proof that on whole memrefs the body runs to the continuation. -/
noncomputable def kernelRun0_B (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) :
    Σ' (L4 : List (View.Piece (Elt F) S1x512x128 .f32)), { LS0 : List (View.Piece (Elt F) S512x128 .f32) //
      ∀ (xi4 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.Run0C.lean ====
/-
  The first kernel's body at a batch's last point (tile coordinate 7): the accumulator ends at what the point before left plus this tile's two products, and the output block is stored with the accumulator.
  The pieces each buffer ends with are found by running the body; the inputs' blocks come back as they were.
-/
import proofs.«107050_j21998822490744_2_alg».proof.Proof.KB.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's stores as pieces (last first), with the proof that on whole memrefs the body runs to the continuation. -/
noncomputable def kernelRun0_C (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) :
    Σ' (L4 : List (View.Piece (Elt F) S1x512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KB.Run1.lean ====
/-
  The second kernel's body on whole memrefs: one batch's projected block, the window weights and the bias are
  loaded and come back as they were; the output block, whatever it held, ends with the body's one store.
  The stored piece is found by running the body.
-/
import proofs.«107050_j21998822490744_2_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's stores into the output block as pieces (last first), with the proof that on whole memrefs the body
    runs to the continuation. -/
noncomputable def kernelRun1 (c : Dev nD) (i : grid1.Coords) (arg1 : Memref sig .tc .vmem S1x512x128 .f32) (harg1 : arg1.IsWhole) (arg2 : Memref sig .tc .vmem S128x101 .f32) (harg2 : arg2.IsWhole) (arg3 : Memref sig .tc .vmem S128 .f32) (harg3 : arg3.IsWhole) (arg4 : Memref sig .tc .vmem S1x512x128 .f32) (harg4 : arg4.IsWhole)
    (x0 : Vec F S1x512x128 .f32) (x1 : Vec F S128x101 .f32) (x2 : Vec F S128 .f32) :
    { L3 : List (View.Piece (Elt F) S1x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1_kernel i arg1 harg1 arg2 harg2 arg3 harg3 arg4 harg4) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.KB.Frame.lean ====
/-
  The proof data of the two pipelines and their body obligations, at a parameter `V`: the TensorCore's buffer
  contents when a region is entered.

  First region (grid 4 × 8). After the body at point `t` each input window's buffer holds its block of the
  array; the accumulator holds: at a point ≡ 0 (mod 8) what the reset-and-add leaves, at any other point what the
  add leaves over what the point before left; the output block holds the accumulator at the points ≡ 7 (mod 8)
  and is idle elsewhere. The region invariant carries the accumulator at what the point before left.
  Second region (grid 4): each point's output block is the body's one store over the three input blocks.
-/
import proofs.«107050_j21998822490744_2_alg».proof.Proof.KB.Run0C
import proofs.«107050_j21998822490744_2_alg».proof.Proof.KB.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # The first region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The accumulator's pieces in this case tile it, so they cover it. -/
theorem scover0_A_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) (y : S512x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x128.size (by sl_kernel_rfl) y

/-- What this case leaves in the accumulator: its pieces read back. -/
def sout0_A_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) : Vec F S512x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What this case leaves in the output block (nothing is stored: a placeholder nothing consults, the window being idle and not written back). -/
def out0_A_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) : Vec F S1x512x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The accumulator's pieces in this case tile it, so they cover it. -/
theorem scover0_B_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) (y : S512x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x128.size (by sl_kernel_rfl) y

/-- What this case leaves in the accumulator: its pieces read back. -/
def sout0_B_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) : Vec F S512x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What this case leaves in the output block (nothing is stored: a placeholder nothing consults, the window being idle and not written back). -/
def out0_B_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) : Vec F S1x512x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The accumulator's pieces in this case tile it, so they cover it. -/
theorem scover0_C_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) (y : S512x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x128.size (by sl_kernel_rfl) y

/-- What this case leaves in the accumulator: its pieces read back. -/
def sout0_C_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) : Vec F S512x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What this case leaves in the output block: its pieces read back. -/
def out0_C_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) : Vec F S1x512x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The output block's pieces at a batch's last point tile it, so they cover it. -/
theorem cover0_C_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) (y : S1x512x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x512x128.size (by sl_kernel_rfl) y

/-! ## What the output block and the accumulator hold after each point -/

/-- The accumulation, by recursion on the point: (the output block, the accumulator) after the body at position `n`. -/
def outsAt0 (c : Dev nD) : (n : ℕ) → n < cfg0.N → Vec F S1x512x128 .f32 × Vec F S512x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The other scoped buffers the first region does not stage, each whole at some contents. -/
abbrev scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq' (c : Dev nD) :
    (Pipeline.ΦA spec0 c : sProp 𝕄) = iprop(iprop((∃ d, owns (c : Thread nD τ) scM0_0 fullShare d) ∗ scRest0 c) ∗ (∃ r, prngReg c r)) :=
  PhiA0_eq c

/-- The region invariant before position `n`: before the first point every scoped buffer at anything; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scRest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ scRest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ scRest0 c) ∗ (∃ r, prngReg c r)) := by
  cases n with
  | zero => exact absurd rfl hz
  | succ n => rfl

/-! ## The first pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The first region's body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in;
    the invariant hands the body the accumulator at what the point before left (at anything at the first point)
    and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq']
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives every scoped buffer back at some contents. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, HR⟩, Hg⟩
  isplitl [HS0 HR]
  · isplitl [HS0]
    · iexists _; iexact HS0
    iexact HR
  iexact Hg

/-! # The second region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block's pieces tile it, so they cover it. -/
theorem cover1_3 (c : Dev nD) (i : grid1.Coords) (arg1 : Memref sig .tc .vmem S1x512x128 .f32) (harg1 : arg1.IsWhole) (arg2 : Memref sig .tc .vmem S128x101 .f32) (harg2 : arg2.IsWhole) (arg3 : Memref sig .tc .vmem S128 .f32) (harg3 : arg3.IsWhole) (arg4 : Memref sig .tc .vmem S1x512x128 .f32) (harg4 : arg4.IsWhole)
    (x0 : Vec F S1x512x128 .f32) (x1 : Vec F S128x101 .f32) (x2 : Vec F S128 .f32) (y : S1x512x128.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S1x512x128.size (by sl_kernel_rfl) y

/-- What the body leaves in the output block: its pieces read back. -/
def out1_3 (c : Dev nD) (i : grid1.Coords) (arg1 : Memref sig .tc .vmem S1x512x128 .f32) (harg1 : arg1.IsWhole) (arg2 : Memref sig .tc .vmem S128x101 .f32) (harg2 : arg2.IsWhole) (arg3 : Memref sig .tc .vmem S128 .f32) (harg3 : arg3.IsWhole) (arg4 : Memref sig .tc .vmem S1x512x128 .f32) (harg4 : arg4.IsWhole)
    (x0 : Vec F S1x512x128 .f32) (x1 : Vec F S128x101 .f32) (x2 : Vec F S128 .f32) : Vec F S1x512x128 .f32 :=
  VO1_3.read (Elt F) (VO1_3.writes (Elt F) VO1_3.junk (kernelRun1 c i arg1 harg1 arg2 harg2 arg3 harg3 arg4 harg4 x0 x1 x2).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KB.Whole.lean ====
/-
  The whole run of @main: the host operations before the first region, the first region, the second region.

  The buffer contents at each boundary are a fold from the launch memory: after the host operations; after the
  first region (its arrays at what its write-backs leave, every other buffer as entered); after the second region
  likewise. Each region is a segment over the thread state "every unscoped buffer at the boundary's contents, the
  generator register at some state, nothing owed". The run's post reads every unscoped buffer at the last
  boundary's contents; the frame claim reads the five argument arrays there (no host operation writes one, the
  first region stages none, the second stages two as inputs and leaves them as entered).
-/
import proofs.«107050_j21998822490744_2_alg».proof.Proof.KB.Frame
import proofs.«107050_j21998822490744_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c => V0 m c
/-- After the host operations (the first region's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At the first region's exit. -/
def B2 (c : Dev nD) : Valuation τ sig (Elt F) :=
  Pipeline.withArrays spec0 c (B1 m c) fun w => (dat0 (E1 m) c).arrAt w cfg0.N
theorem W2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem W2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second region's exit (the end of @main). -/
def B3 (c : Dev nD) : Valuation τ sig (Elt F) :=
  Pipeline.withArrays spec1 c (B2 m c) fun w => (dat1 (E2 m) c).arrAt w cfg1.N
theorem W3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem W3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched -/

theorem W3_main_arg0 (c : Dev nD) : B3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : B3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : B3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : B3 m c (Proc.devRef .tc main_arg3) = m ((c : Thread nD τ).loc main_arg3) :=
  ((W3_arr m c 1).trans (((dat1 (E2 m) c).arrAt_in 1 rfl _).trans (A_eq1 (E2 m) c 1))).trans <| (W2_of_ne m c main_arg3 (by decide)).trans <| (V1_of m c main_arg3 (by decide)).trans rfl
theorem W3_main_arg4 (c : Dev nD) : B3 m c (Proc.devRef .tc main_arg4) = m ((c : Thread nD τ).loc main_arg4) :=
  ((W3_arr m c 2).trans (((dat1 (E2 m) c).arrAt_in 2 rfl _).trans (A_eq1 (E2 m) c 2))).trans <| (W2_of_ne m c main_arg4 (by decide)).trans <| (V1_of m c main_arg4 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    refine .trans ?_ (hin0 (E1 m) c)
    unfold Pipeline.ΦA
    iintro ⟨Hp, -, Hr⟩
    isplitl [Hr]; · iexact Hr
    iexact Hp
  hout c := by
    rw [Pipeline.ownSems0_none, show (pdats m 0 c).Φ (Fin.last _) = (dat0 (E1 m) c).Φ (Fin.last cfg0.N) from rfl]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame claim's post: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The result buffer at the end: the second region's output array as its write-backs leave it. -/
theorem result_eq (c : Dev nD) : B3 m c (Proc.devRef .tc main_v9) = (dat1 (E2 m) c).arrAt 3 cfg1.N :=
  W3_arr m c 3

end Cert.Kernel.Hand

end
-- ==== Proof.KI.Shared.lean ====
/-
  What the runs of the two kernel bodies are stated over.

  The first kernel walks a 4 × 8 grid (batch, channel tile). Its body resets its accumulator where the tile
  coordinate is 0 (the points ≡ 0 mod 8), adds one tile's two products at every point, and copies the accumulator
  into the output block where the tile coordinate is 7 (the points ≡ 7 mod 8); elsewhere the output block is
  left alone and is not written back. Here: the two branch conditions in closed form over the grid, where the
  output window is idle, and names for the staging and scratch memrefs as the pipeline passes them.
-/
import proofs.«107050_j21998822490744_2_alg».proof.Proof.Gen.KernelIdeal.Launch
import proofs.«107050_j21998822490744_2_alg».proof.Proof.Gen.KernelIdeal.Skeleton
import proofs.«107050_j21998822490744_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's branch conditions -/

/-- "the tile coordinate is 0": the condition of the reset. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "the tile coordinate is 7": the condition of the copy into the output block. -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy is not taken the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is taken the window is live. -/
theorem liveAt0_4 : ∀ t : Fin cfg0.N, cond0_1 (grid0.coords t) → cfg0.idle 4 (grid0.coords t) = false := by decide +kernel

/-! ## The memrefs the bodies are called with -/

abbrev ms0_0 (t : Fin cfg0.N) : Memref sig .tc .vmem S1x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S512x128 .f32 := Memref.whole cc0_scratch0
/-- The accumulator as a view: what it holds is stated through it. -/
abbrev VS0_0 : View sig .tc .vmem S512x128 .f32 := scM0_0.view
/-- One staging buffer of the output window, through which its contents are stated. -/
abbrev VO0_4 : View sig .tc .vmem S1x512x128 .f32 := (Memref.whole cc0_stg4_0 : Memref sig .tc .vmem S1x512x128 .f32).view

/-- The region invariant before the first point, with the accumulator as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, owns_whole]; try rfl

abbrev ms1_0 (t : Fin cfg1.N) : Memref sig .tc .vmem S1x512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x101 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .f32 := win1_3.stage (cfg1.slots t 3)
abbrev hs1_3 (t : Fin cfg1.N) : (ms1_3 t).IsWhole := hstage1_3 ((cfg1.slots t 3).cast nbuf1_3)
/-- One staging buffer of the second kernel's output window. -/
abbrev VO1_3 : View sig .tc .vmem S1x512x128 .f32 := (Memref.whole cc1_stg3_0 : Memref sig .tc .vmem S1x512x128 .f32).view

end Cert.KernelIdeal.Hand

end
-- ==== Proof.KI.Run0A.lean ====
/-
  The first kernel's body at a point where the accumulator is reset (tile coordinate 0): the accumulator may hold anything on entry, is zeroed, and ends at zero plus this tile's two products; the output block is left as found.
  The pieces each buffer ends with are found by running the body; the inputs' blocks come back as they were.
-/
import proofs.«107050_j21998822490744_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's stores as pieces (last first), with the proof that on whole memrefs the body runs to the continuation. -/
noncomputable def kernelRun0_A (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) :
    Σ' (L4 : List (View.Piece (Elt F) S1x512x128 .f32)), { LS0 : List (View.Piece (Elt F) S512x128 .f32) //
      ∀ (xi4 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Run0B.lean ====
/-
  The first kernel's body at a point strictly inside a batch (tile coordinate 1..6): the accumulator ends at what the point before left plus this tile's two products; the output block is left as found.
  The pieces each buffer ends with are found by running the body; the inputs' blocks come back as they were.
-/
import proofs.«107050_j21998822490744_2_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's stores as pieces (last first), with the proof that on whole memrefs the body runs to the continuation. -/
noncomputable def kernelRun0_B (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) :
    Σ' (L4 : List (View.Piece (Elt F) S1x512x128 .f32)), { LS0 : List (View.Piece (Elt F) S512x128 .f32) //
      ∀ (xi4 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Run0C.lean ====
/-
  The first kernel's body at a batch's last point (tile coordinate 7): the accumulator ends at what the point before left plus this tile's two products, and the output block is stored with the accumulator.
  The pieces each buffer ends with are found by running the body; the inputs' blocks come back as they were.
-/
import proofs.«107050_j21998822490744_2_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's stores as pieces (last first), with the proof that on whole memrefs the body runs to the continuation. -/
noncomputable def kernelRun0_C (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) :
    Σ' (L4 : List (View.Piece (Elt F) S1x512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Run1.lean ====
/-
  The second kernel's body on whole memrefs: one batch's projected block, the window weights and the bias are
  loaded and come back as they were; the output block, whatever it held, ends with the body's one store.
  The stored piece is found by running the body.
-/
import proofs.«107050_j21998822490744_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's stores into the output block as pieces (last first), with the proof that on whole memrefs the body
    runs to the continuation. -/
noncomputable def kernelRun1 (c : Dev nD) (i : grid1.Coords) (arg1 : Memref sig .tc .vmem S1x512x128 .f32) (harg1 : arg1.IsWhole) (arg2 : Memref sig .tc .vmem S128x101 .f32) (harg2 : arg2.IsWhole) (arg3 : Memref sig .tc .vmem S128 .f32) (harg3 : arg3.IsWhole) (arg4 : Memref sig .tc .vmem S1x512x128 .f32) (harg4 : arg4.IsWhole)
    (x0 : Vec F S1x512x128 .f32) (x1 : Vec F S128x101 .f32) (x2 : Vec F S128 .f32) :
    { L3 : List (View.Piece (Elt F) S1x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1_kernel i arg1 harg1 arg2 harg2 arg3 harg3 arg4 harg4) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.KI.Frame.lean ====
/-
  The proof data of the two pipelines and their body obligations, at a parameter `V`: the TensorCore's buffer
  contents when a region is entered.

  First region (grid 4 × 8). After the body at point `t` each input window's buffer holds its block of the
  array; the accumulator holds: at a point ≡ 0 (mod 8) what the reset-and-add leaves, at any other point what the
  add leaves over what the point before left; the output block holds the accumulator at the points ≡ 7 (mod 8)
  and is idle elsewhere. The region invariant carries the accumulator at what the point before left.
  Second region (grid 4): each point's output block is the body's one store over the three input blocks.
-/
import proofs.«107050_j21998822490744_2_alg».proof.Proof.KI.Run0C
import proofs.«107050_j21998822490744_2_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # The first region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The accumulator's pieces in this case tile it, so they cover it. -/
theorem scover0_A_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) (y : S512x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x128.size (by sl_kernel_rfl) y

/-- What this case leaves in the accumulator: its pieces read back. -/
def sout0_A_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) : Vec F S512x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What this case leaves in the output block (nothing is stored: a placeholder nothing consults, the window being idle and not written back). -/
def out0_A_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) : Vec F S1x512x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The accumulator's pieces in this case tile it, so they cover it. -/
theorem scover0_B_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) (y : S512x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x128.size (by sl_kernel_rfl) y

/-- What this case leaves in the accumulator: its pieces read back. -/
def sout0_B_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) : Vec F S512x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What this case leaves in the output block (nothing is stored: a placeholder nothing consults, the window being idle and not written back). -/
def out0_B_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) : Vec F S1x512x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The accumulator's pieces in this case tile it, so they cover it. -/
theorem scover0_C_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) (y : S512x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x128.size (by sl_kernel_rfl) y

/-- What this case leaves in the accumulator: its pieces read back. -/
def sout0_C_0 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) : Vec F S512x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What this case leaves in the output block: its pieces read back. -/
def out0_C_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) : Vec F S1x512x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The output block's pieces at a batch's last point tile it, so they cover it. -/
theorem cover0_C_4 (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) (y : S1x512x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x512x128.size (by sl_kernel_rfl) y

/-! ## What the output block and the accumulator hold after each point -/

/-- The accumulation, by recursion on the point: (the output block, the accumulator) after the body at position `n`. -/
def outsAt0 (c : Dev nD) : (n : ℕ) → n < cfg0.N → Vec F S1x512x128 .f32 × Vec F S512x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The other scoped buffers the first region does not stage, each whole at some contents. -/
abbrev scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq' (c : Dev nD) :
    (Pipeline.ΦA spec0 c : sProp 𝕄) = iprop(iprop((∃ d, owns (c : Thread nD τ) scM0_0 fullShare d) ∗ scRest0 c) ∗ (∃ r, prngReg c r)) :=
  PhiA0_eq c

/-- The region invariant before position `n`: before the first point every scoped buffer at anything; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scRest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ scRest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ scRest0 c) ∗ (∃ r, prngReg c r)) := by
  cases n with
  | zero => exact absurd rfl hz
  | succ n => rfl

/-! ## The first pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The first region's body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in;
    the invariant hands the body the accumulator at what the point before left (at anything at the first point)
    and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq']
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives every scoped buffer back at some contents. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq']
  iintro ⟨⟨HS0, HR⟩, Hg⟩
  isplitl [HS0 HR]
  · isplitl [HS0]
    · iexists _; iexact HS0
    iexact HR
  iexact Hg

/-! # The second region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block's pieces tile it, so they cover it. -/
theorem cover1_3 (c : Dev nD) (i : grid1.Coords) (arg1 : Memref sig .tc .vmem S1x512x128 .f32) (harg1 : arg1.IsWhole) (arg2 : Memref sig .tc .vmem S128x101 .f32) (harg2 : arg2.IsWhole) (arg3 : Memref sig .tc .vmem S128 .f32) (harg3 : arg3.IsWhole) (arg4 : Memref sig .tc .vmem S1x512x128 .f32) (harg4 : arg4.IsWhole)
    (x0 : Vec F S1x512x128 .f32) (x1 : Vec F S128x101 .f32) (x2 : Vec F S128 .f32) (y : S1x512x128.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S1x512x128.size (by sl_kernel_rfl) y

/-- What the body leaves in the output block: its pieces read back. -/
def out1_3 (c : Dev nD) (i : grid1.Coords) (arg1 : Memref sig .tc .vmem S1x512x128 .f32) (harg1 : arg1.IsWhole) (arg2 : Memref sig .tc .vmem S128x101 .f32) (harg2 : arg2.IsWhole) (arg3 : Memref sig .tc .vmem S128 .f32) (harg3 : arg3.IsWhole) (arg4 : Memref sig .tc .vmem S1x512x128 .f32) (harg4 : arg4.IsWhole)
    (x0 : Vec F S1x512x128 .f32) (x1 : Vec F S128x101 .f32) (x2 : Vec F S128 .f32) : Vec F S1x512x128 .f32 :=
  VO1_3.read (Elt F) (VO1_3.writes (Elt F) VO1_3.junk (kernelRun1 c i arg1 harg1 arg2 harg2 arg3 harg3 arg4 harg4 x0 x1 x2).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Whole.lean ====
/-
  The whole run of @main: the host operations before the first region, the first region, the second region.

  The buffer contents at each boundary are a fold from the launch memory: after the host operations; after the
  first region (its arrays at what its write-backs leave, every other buffer as entered); after the second region
  likewise. Each region is a segment over the thread state "every unscoped buffer at the boundary's contents, the
  generator register at some state, nothing owed". The run's post reads every unscoped buffer at the last
  boundary's contents; the frame claim reads the five argument arrays there (no host operation writes one, the
  first region stages none, the second stages two as inputs and leaves them as entered).
-/
import proofs.«107050_j21998822490744_2_alg».proof.Proof.KI.Frame
import proofs.«107050_j21998822490744_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c => V0 m c
/-- After the host operations (the first region's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At the first region's exit. -/
def B2 (c : Dev nD) : Valuation τ sig (Elt F) :=
  Pipeline.withArrays spec0 c (B1 m c) fun w => (dat0 (E1 m) c).arrAt w cfg0.N
theorem W2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem W2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second region's exit (the end of @main). -/
def B3 (c : Dev nD) : Valuation τ sig (Elt F) :=
  Pipeline.withArrays spec1 c (B2 m c) fun w => (dat1 (E2 m) c).arrAt w cfg1.N
theorem W3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem W3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched -/

theorem W3_main_arg0 (c : Dev nD) : B3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : B3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : B3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : B3 m c (Proc.devRef .tc main_arg3) = m ((c : Thread nD τ).loc main_arg3) :=
  ((W3_arr m c 1).trans (((dat1 (E2 m) c).arrAt_in 1 rfl _).trans (A_eq1 (E2 m) c 1))).trans <| (W2_of_ne m c main_arg3 (by decide)).trans <| (V1_of m c main_arg3 (by decide)).trans rfl
theorem W3_main_arg4 (c : Dev nD) : B3 m c (Proc.devRef .tc main_arg4) = m ((c : Thread nD τ).loc main_arg4) :=
  ((W3_arr m c 2).trans (((dat1 (E2 m) c).arrAt_in 2 rfl _).trans (A_eq1 (E2 m) c 2))).trans <| (W2_of_ne m c main_arg4 (by decide)).trans <| (V1_of m c main_arg4 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    refine .trans ?_ (hin0 (E1 m) c)
    unfold Pipeline.ΦA
    iintro ⟨Hp, -, Hr⟩
    isplitl [Hr]; · iexact Hr
    iexact Hp
  hout c := by
    rw [Pipeline.ownSems0_none, show (pdats m 0 c).Φ (Fin.last _) = (dat0 (E1 m) c).Φ (Fin.last cfg0.N) from rfl]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame claim's post: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The result buffer at the end: the second region's output array as its write-backs leave it. -/
theorem result_eq (c : Dev nD) : B3 m c (Proc.devRef .tc main_v9) = (dat1 (E2 m) c).arrAt 3 cfg1.N :=
  W3_arr m c 3

end Cert.KernelIdeal.Hand

end
-- ==== Proof.KI.Pieces0.lean ====
/-
  What each case of the first kernel's body leaves, as the body's own arithmetic of the input blocks:
  the accumulator ends at one tile's update of zero (at a reset point) or of what it held (elsewhere), and at a
  batch's last point the output block is the copy of that updated accumulator.
-/
import proofs.«107050_j21998822490744_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

theorem sout0_A_eq (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : cond0_0 i) (hc1 : ¬cond0_1 i)
    (x0 : Vec F S1x128x512 .f32) (x1 : Vec F S1x128x512 .f32) (x2 : Vec F S128x128 .f32) (x3 : Vec F S128x128 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  rw [View.canon_cons_unit_zero hz2]
  sl_unfold_run_names
  rw [View.readCov_unit_zero _ hz2]
  simp only [View.readAt_eq_ld, Memref.IsWhole.read_unread, View.ld_unit_zero (S := S1x128x512) hz3, View.ld_unit_zero (S := S128x128) hz2, View.ld_unit_zero (S := S512x128) hz2, View.ld_unit_zero (S := S1x512x128) hz3]

theorem sout0_B_eq (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : ¬cond0_1 i)
    (x0 : Vec F S1x128x512 .f32) (x1 : Vec F S1x128x512 .f32) (x2 : Vec F S128x128 .f32) (x3 : Vec F S128x128 .f32) (xs0 : Vec F S512x128 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, Memref.IsWhole.read_unread, View.ld_unit_zero (S := S1x128x512) hz3, View.ld_unit_zero (S := S128x128) hz2, View.ld_unit_zero (S := S512x128) hz2, View.ld_unit_zero (S := S1x512x128) hz3]

theorem sout0_C_eq (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_run_names
  rw [View.canon_unit_zero hz2]
  simp only [View.readAt_eq_ld, Memref.IsWhole.read_unread, View.ld_unit_zero (S := S1x128x512) hz3, View.ld_unit_zero (S := S128x128) hz2, View.ld_unit_zero (S := S512x128) hz2, View.ld_unit_zero (S := S1x512x128) hz3]

theorem out0_C_eq (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x512x128 .f32) (harg6 : arg6.IsWhole) (arg7 : Memref sig .tc .vmem S512x128 .f32) (harg7 : arg7.IsWhole) (hc0 : ¬cond0_0 i) (hc1 : cond0_1 i)
    (x0 : Vec F S1x128x512 .f32) (x1 : Vec F S1x128x512 .f32) (x2 : Vec F S128x128 .f32) (x3 : Vec F S128x128 .f32) (xs0 : Vec F S512x128 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  rw [View.canon_unit_zero hz3]
  sl_unfold_run_names
  rw [View.readCov_unit_zero _ hz2]
  simp only [View.readAt_eq_ld, Memref.IsWhole.read_unread, View.ld_unit_zero (S := S1x128x512) hz3, View.ld_unit_zero (S := S128x128) hz2, View.ld_unit_zero (S := S512x128) hz2, View.ld_unit_zero (S := S1x512x128) hz3]

end Cert.KernelIdeal.Hand

end
-- ==== Proof.KI.Pay0.lean ====
/-
  The first kernel's arithmetic at the ideal instance, index by index.

  One tile's update of the accumulator: entry (t, d) gains Σ_c x1blk[c, t] · w1blk[d, c] + Σ_c x2blk[c, t] · w2blk[d, c]
  — two products of a [128(channel) × 512(time)] block, contracted on its channel axis, with a
  [128(feature) × 128(channel)] block, contracted on its channel axis; the roundings to bf16 are the identity here.
  The reset stores zeros; the copy into the output block adds a leading unit axis.
-/
import proofs.«107050_j21998822490744_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx

theorem mm_l0 (j : S512x128.Idx) (q : dot_S128x512_S128x128_S512x128_0_1_1_0_n_n.contr.Idx) : (dot_S128x512_S128x128_S512x128_0_1_1_0_n_n.lhsIdx j q 0).val = (q ⟨0, by decide⟩).val :=
  dot_S128x512_S128x128_S512x128_0_1_1_0_n_n.lhsIdx_val_of_single rfl j q
theorem mm_l1 (j : S512x128.Idx) (q : dot_S128x512_S128x128_S512x128_0_1_1_0_n_n.contr.Idx) : (dot_S128x512_S128x128_S512x128_0_1_1_0_n_n.lhsIdx j q 1).val = (j 0).val := by
  unfold DotDims.lhsIdx
  rw [dif_neg (show ¬(1 : Fin S128x512.rank) ∈ dot_S128x512_S128x128_S512x128_0_1_1_0_n_n.lhsBatch by decide), dif_pos (show (1 : Fin S128x512.rank) ∈ dot_S128x512_S128x128_S512x128_0_1_1_0_n_n.lhsNonContracting by decide)]
  rfl
theorem mm_r0 (j : S512x128.Idx) (q : dot_S128x512_S128x128_S512x128_0_1_1_0_n_n.contr.Idx) : (dot_S128x512_S128x128_S512x128_0_1_1_0_n_n.rhsIdx j q 0).val = (j 1).val := by
  unfold DotDims.rhsIdx
  rw [dif_neg (show ¬(0 : Fin S128x128.rank) ∈ dot_S128x512_S128x128_S512x128_0_1_1_0_n_n.rhsBatch by decide), dif_pos (show (0 : Fin S128x128.rank) ∈ dot_S128x512_S128x128_S512x128_0_1_1_0_n_n.rhsNonContracting by decide)]
  rfl
theorem mm_r1 (j : S512x128.Idx) (q : dot_S128x512_S128x128_S512x128_0_1_1_0_n_n.contr.Idx) : (dot_S128x512_S128x128_S512x128_0_1_1_0_n_n.rhsIdx j q 1).val = (q ⟨0, by decide⟩).val :=
  dot_S128x512_S128x128_S512x128_0_1_1_0_n_n.rhsIdx_val_of_single rfl j q

/-- The dot's left operand index at output (t, d) and channel k is (k, t). -/
theorem mm_lhs (t : Fin 512) (d : Fin 128) (k : Fin 128) :
    dot_S128x512_S128x128_S512x128_0_1_1_0_n_n.lhsIdx (ix2 t d) ((contrEquiv1 dot_S128x512_S128x128_S512x128_0_1_1_0_n_n 128 rfl rfl).symm k) = ix2 k t := by
  have hk := contrEquiv1_symm_val dot_S128x512_S128x128_S512x128_0_1_1_0_n_n 128 rfl rfl k
  exact funext fun a => Fin.ext (by
    match a with
    | ⟨0, _⟩ => exact (mm_l0 _ _).trans hk
    | ⟨1, _⟩ => exact mm_l1 _ _)

/-- The dot's right operand index at output (t, d) and channel k is (d, k). -/
theorem mm_rhs (t : Fin 512) (d : Fin 128) (k : Fin 128) :
    dot_S128x512_S128x128_S512x128_0_1_1_0_n_n.rhsIdx (ix2 t d) ((contrEquiv1 dot_S128x512_S128x128_S512x128_0_1_1_0_n_n 128 rfl rfl).symm k) = ix2 d k := by
  have hk := contrEquiv1_symm_val dot_S128x512_S128x128_S512x128_0_1_1_0_n_n 128 rfl rfl k
  exact funext fun a => Fin.ext (by
    match a with
    | ⟨0, _⟩ => exact mm_r0 _ _
    | ⟨1, _⟩ => exact (mm_r1 _ _).trans hk)

/-- One product into a zero accumulator, at an index: the sum over the 128 channels of the tile. -/
theorem mm_apply (l : FVec Ideal S128x512 .bf16) (r : FVec Ideal S128x128 .bf16) (t : Fin 512) (d : Fin 128) :
    matmul dot_S128x512_S128x128_S512x128_0_1_1_0_n_n none l r (constant (F := Ideal) S512x128 .f32 0x00000000#32) (ix2 t d)
      = ∑ k : Fin 128, l (ix2 k t) * r (ix2 d k) := by
  simp only [matmul]
  rw [Ideal.matmul_constant_zero_apply, ← Equiv.sum_comp (contrEquiv1 dot_S128x512_S128x128_S512x128_0_1_1_0_n_n 128 rfl rfl).symm]
  refine Finset.sum_congr rfl fun k _ => ?_
  rw [mm_lhs, mm_rhs]

/-- A block [1,128,512] with its unit axis cast away, at (k, t). -/
theorem drop_apply (x : Vec Ideal S1x128x512 .f32) (k : Fin 128) (t : Fin 512) :
    shapeCast S128x512 x shapeCasts_S1x128x512_S128x512 (ix2 k t) = x (ix3 (0 : Fin 1) k t) := by
  refine (shapeCast_dropUnit_apply ![128, 512] x shapeCasts_S1x128x512_S128x512 (ix2 k t)).trans ?_
  refine congrArg x (funext fun a => ?_)
  match a with
  | ⟨0, _⟩ => rfl
  | ⟨1, _⟩ => rfl
  | ⟨2, _⟩ => rfl

/-- One tile's update at an index. -/
theorem pay2_apply (x0 x1 : Vec Ideal S1x128x512 .f32) (x2 x3 : Vec Ideal S128x128 .f32) (acc : Vec Ideal S512x128 .f32)
    (t : Fin 512) (d : Fin 128) :
    k0_pay2 (F := Ideal) x0 x1 x2 x3 acc (ix2 t d)
      = acc (ix2 t d) + ((∑ k : Fin 128, x0 (ix3 (0 : Fin 1) k t) * x2 (ix2 d k)) + ∑ k : Fin 128, x1 (ix3 (0 : Fin 1) k t) * x3 (ix2 d k)) := by
  unfold k0_pay2
  simp only [shapeCast_self]
  rw [addf_apply, addf_apply, mm_apply, mm_apply]
  simp only [truncf_apply]
  exact congrArg (acc (ix2 t d) + ·) (congrArg₂ (· + ·)
    (Finset.sum_congr rfl fun k _ => congrArg (· * x2 (ix2 d k)) (drop_apply x0 k t))
    (Finset.sum_congr rfl fun k _ => congrArg (· * x3 (ix2 d k)) (drop_apply x1 k t)))

/-- The reset's payload is zero everywhere. -/
theorem pay1_apply (j : S512x128.Idx) : k0_pay1 (F := Ideal) j = 0 := by
  unfold k0_pay1
  simp only [shapeCast_self]
  exact Ideal.ofBits_zero_f32

/-- The copy into the output block at (0, t, d) is the accumulator at (t, d). -/
theorem pay3_apply (a : Vec Ideal S512x128 .f32) (t : Fin 512) (d : Fin 128) :
    k0_pay3 (F := Ideal) a (ix3 (0 : Fin 1) t d) = a (ix2 t d) := by
  unfold k0_pay3
  refine (shapeCast_addUnit_apply ![512, 128] a shapeCasts_S512x128_S1x512x128 (ix3 (0 : Fin 1) t d)).trans ?_
  refine congrArg a (funext fun b => ?_)
  match b with
  | ⟨0, _⟩ => rfl
  | ⟨1, _⟩ => rfl

end Cert.KernelIdeal.Val

end
-- ==== Proof.KI.Val0.lean ====
/-
  What the first region leaves in its output array, at the ideal instance.

  Point t = 8·b + k of the 4 × 8 grid works on batch b and channel tile k. Its four input blocks are: channels
  128k … 128k+127 of batch b of the two feature arrays, and columns 128k … 128k+127 of the two weight arrays. So one
  tile's update adds  Σ_c f1[b,128k+c,t]·w1[d,128k+c] + Σ_c f2[b,128k+c,t]·w2[d,128k+c]  to entry (t, d), and after
  point 8b + k the accumulator holds the sum of tiles 0 … k of batch b (induction on the point: a reset point starts
  from zero, every other point adds to what the point before left). The output block of batch b, written back at
  point 8b + 7, is the sum of all eight tiles; the four batches' blocks cover the array.
-/
import proofs.«107050_j21998822490744_2_alg».proof.Proof.KI.Pieces0
import proofs.«107050_j21998822490744_2_alg».proof.Proof.KI.Pay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The four arrays the first region reads, as it finds them, as arrays of extended reals. -/
abbrev aF1 (c : Dev nD) : S4x1024x512.Idx → EReal := V c main_v2
abbrev aF2 (c : Dev nD) : S4x1024x512.Idx → EReal := V c main_v5
abbrev aW1 (c : Dev nD) : S128x1024.Idx → EReal := V c main_v6
abbrev aW2 (c : Dev nD) : S128x1024.Idx → EReal := V c main_v7

/-- Tile k of batch b at (t, d), from the arrays as the region finds them. -/
def tileV (c : Dev nD) (b : Fin 4) (k : Fin 8) (t : Fin 512) (d : Fin 128) : EReal :=
  (∑ cc : Fin 128, aF1 V c (ix3 b (⟨128 * k.val + cc.val, by omega⟩ : Fin 1024) t) * aW1 V c (ix2 d (⟨128 * k.val + cc.val, by omega⟩ : Fin 1024)))
  + ∑ cc : Fin 128, aF2 V c (ix3 b (⟨128 * k.val + cc.val, by omega⟩ : Fin 1024) t) * aW2 V c (ix2 d (⟨128 * k.val + cc.val, by omega⟩ : Fin 1024))

/-- The same with natural-number batch and tile (zero outside the grid): the form the induction runs over. -/
def tileN (c : Dev nD) (b k : ℕ) (t : Fin 512) (d : Fin 128) : EReal :=
  if h : b < 4 ∧ k < 8 then tileV V c ⟨b, h.1⟩ ⟨k, h.2⟩ t d else 0

/-- The first region's output array: the eight tiles summed. -/
def G0 (c : Dev nD) : S4x512x128.Idx → EReal :=
  fun i => ∑ k : Fin 8, tileV V c (i 0) k (i 1) (i 2)

/-- The printed index maps, decided over the grid: feature blocks at (batch, tile, 0), weight blocks at (0, tile),
    the output block at (batch, 0, 0). -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 3) = t.val / 8 ∧ win0_4.index t (1 : Fin 3) = 0 ∧ win0_4.index t (2 : Fin 3) = 0 :=
  (by decide +kernel : ∀ t : Fin grid0.N, _)

theorem N0 : cfg0.N = 32 := N_0

/-- A feature block read at (0, cc, tt): channel 128k + cc of batch b. -/
theorem blkF0 (c : Dev nD) (t : Fin cfg0.N) (cc : Fin 128) (tt : Fin 512) (hb : t.val / 8 < 4) (hc : 128 * (t.val % 8) + cc.val < 1024) :
    iblk0 V c 0 t (ix3 (0 : Fin 1) cc tt) = aF1 V c (ix3 (⟨t.val / 8, hb⟩ : Fin 4) (⟨128 * (t.val % 8) + cc.val, hc⟩ : Fin 1024) tt) := by
  obtain ⟨e0, e1, e2, -⟩ := idx_facts0 t
  show V c main_v2 (((cfg0.win 0).blk t).view.emb (ix3 (0 : Fin 1) cc tt)) = _
  refine congrArg (V c main_v2) (funext fun a => Fin.ext ?_)
  match a with
  | ⟨0, _⟩ => show win0_0.index t (0 : Fin 3) * 1 + 1 * 0 = t.val / 8; omega
  | ⟨1, _⟩ => show win0_0.index t (1 : Fin 3) * 128 + 1 * cc.val = 128 * (t.val % 8) + cc.val; omega
  | ⟨2, _⟩ => show win0_0.index t (2 : Fin 3) * 512 + 1 * tt.val = tt.val; omega

theorem blkF1 (c : Dev nD) (t : Fin cfg0.N) (cc : Fin 128) (tt : Fin 512) (hb : t.val / 8 < 4) (hc : 128 * (t.val % 8) + cc.val < 1024) :
    iblk0 V c 1 t (ix3 (0 : Fin 1) cc tt) = aF2 V c (ix3 (⟨t.val / 8, hb⟩ : Fin 4) (⟨128 * (t.val % 8) + cc.val, hc⟩ : Fin 1024) tt) := by
  obtain ⟨-, -, -, e0, e1, e2, -⟩ := idx_facts0 t
  show V c main_v5 (((cfg0.win 1).blk t).view.emb (ix3 (0 : Fin 1) cc tt)) = _
  refine congrArg (V c main_v5) (funext fun a => Fin.ext ?_)
  match a with
  | ⟨0, _⟩ => show win0_1.index t (0 : Fin 3) * 1 + 1 * 0 = t.val / 8; omega
  | ⟨1, _⟩ => show win0_1.index t (1 : Fin 3) * 128 + 1 * cc.val = 128 * (t.val % 8) + cc.val; omega
  | ⟨2, _⟩ => show win0_1.index t (2 : Fin 3) * 512 + 1 * tt.val = tt.val; omega

/-- A weight block read at (d, cc): column 128k + cc. -/
theorem blkW0 (c : Dev nD) (t : Fin cfg0.N) (d : Fin 128) (cc : Fin 128) (hc : 128 * (t.val % 8) + cc.val < 1024) :
    iblk0 V c 2 t (ix2 d cc) = aW1 V c (ix2 d (⟨128 * (t.val % 8) + cc.val, hc⟩ : Fin 1024)) := by
  obtain ⟨-, -, -, -, -, -, e0, e1, -⟩ := idx_facts0 t
  show V c main_v6 (((cfg0.win 2).blk t).view.emb (ix2 d cc)) = _
  refine congrArg (V c main_v6) (funext fun a => Fin.ext ?_)
  match a with
  | ⟨0, _⟩ => show win0_2.index t (0 : Fin 2) * 128 + 1 * d.val = d.val; omega
  | ⟨1, _⟩ => show win0_2.index t (1 : Fin 2) * 128 + 1 * cc.val = 128 * (t.val % 8) + cc.val; omega

theorem blkW1 (c : Dev nD) (t : Fin cfg0.N) (d : Fin 128) (cc : Fin 128) (hc : 128 * (t.val % 8) + cc.val < 1024) :
    iblk0 V c 3 t (ix2 d cc) = aW2 V c (ix2 d (⟨128 * (t.val % 8) + cc.val, hc⟩ : Fin 1024)) := by
  obtain ⟨-, -, -, -, -, -, -, -, e0, e1, -⟩ := idx_facts0 t
  show V c main_v7 (((cfg0.win 3).blk t).view.emb (ix2 d cc)) = _
  refine congrArg (V c main_v7) (funext fun a => Fin.ext ?_)
  match a with
  | ⟨0, _⟩ => show win0_3.index t (0 : Fin 2) * 128 + 1 * d.val = d.val; omega
  | ⟨1, _⟩ => show win0_3.index t (1 : Fin 2) * 128 + 1 * cc.val = 128 * (t.val % 8) + cc.val; omega

/-- One tile's update over the point's blocks adds that point's tile. -/
theorem update_at (c : Dev nD) (t : Fin cfg0.N) (acc : Vec Ideal S512x128 .f32) (tt : Fin 512) (d : Fin 128) :
    k0_pay2 (F := Ideal) (iblk0 V c 0 t) (iblk0 V c 1 t) (iblk0 V c 2 t) (iblk0 V c 3 t) acc (ix2 tt d)
      = acc (ix2 tt d) + tileN V c (t.val / 8) (t.val % 8) tt d := by
  have hN : t.val < 32 := lt_of_lt_of_eq t.isLt N0
  have hb : t.val / 8 < 4 := by omega
  have hk : t.val % 8 < 8 := by omega
  refine (Val.pay2_apply _ _ _ _ acc tt d).trans ?_
  refine congrArg (acc (ix2 tt d) + ·) ?_
  unfold tileN
  rw [dif_pos ⟨hb, hk⟩]
  unfold tileV
  refine congrArg₂ (· + ·) (Finset.sum_congr rfl fun cc _ => ?_) (Finset.sum_congr rfl fun cc _ => ?_)
  · rw [blkF0 V c t cc tt hb (by omega), blkW0 V c t d cc (by omega)]
  · rw [blkF1 V c t cc tt hb (by omega), blkW1 V c t d cc (by omega)]

/-- THE ACCUMULATION: after point n the accumulator holds tiles 0 … n mod 8 of batch n / 8, summed. -/
theorem acc_eq (c : Dev nD) : ∀ (n : ℕ) (hn : n < cfg0.N) (tt : Fin 512) (d : Fin 128),
    (outsAt0 V c n hn).2 (ix2 tt d) = ∑ k ∈ Finset.range (n % 8 + 1), tileN V c (n / 8) k tt d := by
  intro n
  induction n with
  | zero =>
    intro hn tt d
    have e := outsAt0_A V c ⟨0, hn⟩ (Nat.zero_mod _) (show ¬ (0 : ℕ) % 8 = 7 by decide)
    rw [show (outsAt0 V c 0 hn) = outsAt0 V c (⟨0, hn⟩ : Fin cfg0.N).val (⟨0, hn⟩ : Fin cfg0.N).isLt from rfl, e]
    dsimp only
    rw [sout0_A_eq, update_at, Val.pay1_apply, zero_add]
    simp
  | succ n ih =>
    intro hn tt d
    by_cases h0 : (n + 1) % 8 = 0
    · have h1 : ¬(n + 1) % 8 = 7 := by omega
      have e := outsAt0_A V c ⟨n + 1, hn⟩ h0 h1
      rw [show (outsAt0 V c (n + 1) hn) = outsAt0 V c (⟨n + 1, hn⟩ : Fin cfg0.N).val (⟨n + 1, hn⟩ : Fin cfg0.N).isLt from rfl, e]
      dsimp only
      rw [sout0_A_eq, update_at, Val.pay1_apply, zero_add]
      show tileN V c ((n + 1) / 8) ((n + 1) % 8) tt d = _
      rw [h0]; simp
    · have hprev := ih (Nat.lt_of_succ_lt hn) tt d
      have hq : n / 8 = (n + 1) / 8 := by omega
      have hr : n % 8 + 1 = (n + 1) % 8 := by omega
      by_cases h1 : (n + 1) % 8 = 7
      · have e := outsAt0_C V c ⟨n + 1, hn⟩ h0 h1
        rw [show (outsAt0 V c (n + 1) hn) = outsAt0 V c (⟨n + 1, hn⟩ : Fin cfg0.N).val (⟨n + 1, hn⟩ : Fin cfg0.N).isLt from rfl, e]
        dsimp only
        rw [sout0_C_eq, update_at]
        show (outsAt0 V c (n + 1 - 1) _).2 (ix2 tt d) + tileN V c ((n + 1) / 8) ((n + 1) % 8) tt d = _
        rw [Finset.sum_range_succ, ← hr, ← hq]
        exact congrArg (· + _) hprev
      · have e := outsAt0_B V c ⟨n + 1, hn⟩ h0 h1
        rw [show (outsAt0 V c (n + 1) hn) = outsAt0 V c (⟨n + 1, hn⟩ : Fin cfg0.N).val (⟨n + 1, hn⟩ : Fin cfg0.N).isLt from rfl, e]
        dsimp only
        rw [sout0_B_eq, update_at]
        show (outsAt0 V c (n + 1 - 1) _).2 (ix2 tt d) + tileN V c ((n + 1) / 8) ((n + 1) % 8) tt d = _
        rw [Finset.sum_range_succ, ← hr, ← hq]
        exact congrArg (· + _) hprev

/-! ## From the blocks to the array -/

/-- The output block's element (0, tt, d) at point t sits at (t / 8, tt, d) of the array. -/
theorem emb4 (t : Fin cfg0.N) (tt : Fin 512) (d : Fin 128) (hb : t.val / 8 < 4) :
    ((cfg0.win 4).blk t).view.emb (ix3 (0 : Fin 1) tt d) = ix3 (⟨t.val / 8, hb⟩ : Fin 4) tt d := by
  obtain ⟨-, -, -, -, -, -, -, -, -, -, e0, e1, e2⟩ := idx_facts0 t
  refine funext fun a => Fin.ext ?_
  match a with
  | ⟨0, _⟩ => show win0_4.index t (0 : Fin 3) * 1 + 1 * 0 = t.val / 8; omega
  | ⟨1, _⟩ => show win0_4.index t (1 : Fin 3) * 512 + 1 * tt.val = tt.val; omega
  | ⟨2, _⟩ => show win0_4.index t (2 : Fin 3) * 128 + 1 * d.val = d.val; omega

/-- WHAT A BATCH'S LAST POINT WRITES BACK is that batch's block of the eight tiles summed. -/
theorem flushed4_eq (c : Dev nD) (t : Fin cfg0.N) (hf : (cfg0.win 4).flush t = true) :
    (dat0 V c).flushed 4 t = ((cfg0.win 4).blk t).view.read (Elt Ideal) (G0 V c) := by
  have h7 : t.val % 8 = 7 := (flush0_4 t).mp hf
  have h0 : ¬ t.val % 8 = 0 := by omega
  have hN : t.val < 32 := lt_of_lt_of_eq t.isLt N0
  have hb : t.val / 8 < 4 := by omega
  show (cfg0.win 4).cut (grid0.coords t) ((dat0 V c).after 4 t) = _
  rw [after0_4, outsAt0_C V c t h0 h7]
  dsimp only
  rw [out0_C_eq]
  funext j
  obtain ⟨z, tt, d, rfl⟩ : ∃ (z : Fin 1) (tt : Fin 512) (d : Fin 128), j = ix3 z tt d := ⟨j 0, j 1, j 2, eq_ix3 j⟩
  obtain rfl : z = 0 := Subsingleton.elim _ _
  have hacc := acc_eq V c t.val t.isLt tt d
  rw [outsAt0_C V c t h0 h7] at hacc
  dsimp only at hacc
  rw [sout0_C_eq] at hacc
  refine (Val.pay3_apply _ tt d).trans (hacc.trans ?_)
  show _ = G0 V c (((cfg0.win 4).blk t).view.emb (ix3 (0 : Fin 1) tt d))
  rw [emb4 t tt d hb, h7]
  unfold G0
  rw [Finset.sum_range]
  refine Finset.sum_congr rfl fun k _ => ?_
  unfold tileN
  rw [dif_pos ⟨hb, k.isLt⟩]

/-- An index of the array is in point t's output block iff each coordinate is in the block's range. -/
theorem mem_blk4 (t : Fin cfg0.N) (i : S4x512x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v8).slice (win0_4.rect t)).set ↔ _
  rw [View.set_slice_whole, Rect.mem_set_unit]
  exact Iff.rfl

/-- Batch b's rows are in the block written back at point 8b + 7. -/
theorem cover4 (i : S4x512x128.Idx) :
    ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 128 := (i 2).isLt
  refine ⟨⟨8 * (i 0).val + 7, by rw [N0]; omega⟩, (flush0_4 _).mpr (by show (8 * (i 0).val + 7) % 8 = 7; omega), ?_⟩
  obtain ⟨-, -, -, -, -, -, -, -, -, -, e0, e1, e2⟩ := idx_facts0 ⟨8 * (i 0).val + 7, by rw [N0]; omega⟩
  rw [mem_blk4]
  intro a
  match a with
  | ⟨0, _⟩ => show win0_4.index _ (0 : Fin 3) * 1 ≤ (i 0).val ∧ (i 0).val < win0_4.index _ (0 : Fin 3) * 1 + 1; dsimp only at e0; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 128 ≤ (i 2).val ∧ (i 2).val < win0_4.index _ (2 : Fin 3) * 128 + 128; omega

/-- THE FIRST REGION'S OUTPUT ARRAY after the region: the eight tiles summed, everywhere. -/
theorem final0 (c : Dev nD) : (dat0 V c).arrAt 4 cfg0.N = G0 V c :=
  (dat0 V c).arrAt_eq_of_cover 4 (G0 V c) (fun t hf => flushed4_eq V c t hf) (cover4)

end Cert.KernelIdeal.Hand

end
-- ==== Proof.Spec.lean ====
/-
  The function both programs compute, written once over literal shapes.

  Inputs: the two spatial means `f1 f2 : [4,1024,512]` (batch, channel, time), the projection weights
  `wp : [128,2048]`, the window weights `wfc : [128,101]` and the bias `bfc : [128]`.

  * the projection `p[b,t,d] = Σ_c feat[b,c,t] · wp[d,c]` over the 2048 joined channels (the first 1024 from
    `f1`, the last 1024 from `f2`), in two groupings: one sum over all 2048 channels (`projJoined`), and
    eight tiles of 128 channels, each tile the `f1` part plus the `f2` part (`projTiled`);
  * per batch, over `p : time → feature`: the row norm clipped below by `ε`, the normalised rows `xn`, the
    windowed similarity `win[t,l] = ⟨xn[t], xn[t+l-50]⟩` when `0 ≤ t+l-50 < 512` and `0` otherwise, and the
    output `max(Σ_l win[t,l] · wfc[o,l] + bfc[o], 0)`.
-/
import Idealize.ShloMosaic.PureOps.Ideal
import Idealize.ShloMosaic.Lib.ValueIdx

noncomputable section

namespace Cert.Spec

open Idealize.ShloMosaic Idealize.ShloMosaic.ValueIdx

/-- Arrays of extended reals over literal shapes. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- The clip `ε` under the norm: the f32 word both programs carry (the f32 nearest `1e-12`). -/
def eps : EReal := Ideal.ofBits .f32 0x2B8CBCCC#32

/-- Channel `c` of the 2048 joined channels: `f1`'s below 1024, `f2`'s from 1024 on. -/
def feat (f1 f2 : A3 4 1024 512) (b : Fin 4) (c : Fin 2048) (t : Fin 512) : EReal :=
  if h : c.val < 1024 then f1 (ix3 b ⟨c.val, h⟩ t) else f2 (ix3 b ⟨c.val - 1024, by omega⟩ t)

/-- The projection as ONE sum over the 2048 joined channels. -/
def projJoined (f1 f2 : A3 4 1024 512) (wp : A2 128 2048) (b : Fin 4) (t : Fin 512) (d : Fin 128) : EReal :=
  ∑ c : Fin 2048, feat f1 f2 b c t * wp (ix2 d c)

/-- Tile `k` of 128 channels: its `f1` part plus its `f2` part. -/
def tile (f1 f2 : A3 4 1024 512) (wp : A2 128 2048) (b : Fin 4) (t : Fin 512) (d : Fin 128) (k : Fin 8) : EReal :=
  (∑ c : Fin 128, f1 (ix3 b ⟨128 * k.val + c.val, by omega⟩ t) * wp (ix2 d ⟨128 * k.val + c.val, by omega⟩))
  + ∑ c : Fin 128, f2 (ix3 b ⟨128 * k.val + c.val, by omega⟩ t) * wp (ix2 d ⟨1024 + 128 * k.val + c.val, by omega⟩)

/-- The projection as eight tiles of 128 channels. -/
def projTiled (f1 f2 : A3 4 1024 512) (wp : A2 128 2048) (b : Fin 4) (t : Fin 512) (d : Fin 128) : EReal :=
  ∑ k : Fin 8, tile f1 f2 wp b t d k

/-- The clipped row norm `max(√(Σ_d p[t,d]²), ε)`. -/
def nrm (p : Fin 512 → Fin 128 → EReal) (t : Fin 512) : EReal :=
  max (Ideal.sqrt (∑ d : Fin 128, p t d * p t d)) eps

/-- The normalised rows. -/
def xn (p : Fin 512 → Fin 128 → EReal) (t : Fin 512) (d : Fin 128) : EReal :=
  Ideal.div (p t d) (nrm p t)

/-- Row `t` against row `s`. -/
def sim (p : Fin 512 → Fin 128 → EReal) (t s : Fin 512) : EReal :=
  ∑ d : Fin 128, xn p t d * xn p s d

/-- The windowed similarity: column `l` pairs row `t` with row `t + l - 50` when that row exists. -/
def win (p : Fin 512 → Fin 128 → EReal) (t : Fin 512) (l : Fin 101) : EReal :=
  if h : 50 ≤ t.val + l.val ∧ t.val + l.val < 562 then sim p t ⟨t.val + l.val - 50, by omega⟩ else 0

/-- One batch's output. -/
def out2 (p : Fin 512 → Fin 128 → EReal) (wfc : A2 128 101) (bfc : A1 128) (t : Fin 512) (o : Fin 128) : EReal :=
  max ((∑ l : Fin 101, win p t l * wfc (ix2 o l)) + bfc (ix1 o)) 0

/-- The whole result from a projection `P`. -/
def result (P : Fin 4 → Fin 512 → Fin 128 → EReal) (wfc : A2 128 101) (bfc : A1 128) : A3 4 512 128 :=
  fun i => out2 (P (i 0)) wfc bfc (i 1) (i 2)

end Cert.Spec

end
-- ==== Proof.K1Lay.lean ====
/-
  Layout operations of the second kernel read at an index given by coordinates: a column cast
  `[a] → [a, 1]`, a column broadcast `[a, 1] → [a, b]`, the row iota, a rotation of the rows, and the row sum
  of a matrix.
-/
import proofs.«107050_j21998822490744_2_alg».proof.Proof.Gen.KernelIdeal.Skeleton
import proofs.«107050_j21998822490744_2_alg».proof.Proof.Spec
import Idealize.ShloMosaic.Lib.ValueLayout
import Idealize.ShloMosaic.PureOps.Ideal.Laws

noncomputable section

namespace Cert.K1Side

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The row iota of an `[a, 1]` column reads its row. -/
theorem iota_rows_apply {a : ℕ} (κ : Kind) (h : (⟨2, ![a, 1]⟩ : Shape).Iotas κ 32 [0]) (i : Fin a) (u : Fin 1) :
    iota κ ⟨2, ![a, 1]⟩ 32 [0] h (ix2 i u) = BitVec.ofNat 32 i.val :=
  iota_single_apply κ _ 32 0 h (ix2 i u)

/-- A matrix whose rows are rotated by `n` reads, at `(i, j)`, the operand at row `(i + a - n % a) % a`. -/
theorem dynamicRotate_rows_apply {a b : ℕ} (n : BitVec 32) (x : (⟨2, ![a, b]⟩ : Shape).Idx → α)
    (h : (⟨2, ![a, b]⟩ : Shape).Rotates 0 none) (i : Fin a) (j : Fin b) (k : Fin a)
    (hk : k.val = (i.val + a - n.toNat % a) % a) :
    dynamicRotate (s := ⟨2, ![a, b]⟩) 0 n none x h (ix2 i j) = x (ix2 k j) := by
  unfold dynamicRotate
  refine congrArg x (funext fun c => ?_)
  match c with
  | ⟨0, _⟩ => exact Fin.ext (by show (i.val + a - (n.toNat + 0) % a) % a = k.val; rw [Nat.add_zero, hk])
  | ⟨1, _⟩ => rfl

/-- The sum over the columns of an `[a, b]` matrix, at the ideal values, read at row `i`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  refine Finset.sum_congr rfl fun j _ => congrArg src (funext fun c => ?_)
  match c with
  | ⟨0, _⟩ => exact Fin.ext rfl
  | ⟨1, _⟩ => exact Fin.ext rfl

end Cert.K1Side

end
-- ==== Proof.K1Col.lean ====
/-
  One column of the windowed similarity: the rows rotated by `K`, multiplied with the rows, summed over the
  features, and masked where `0 ≤ t + s < 512`. With `K = (562 - l) mod 512` and `s = l - 50` its value at row `t`
  is `Σ_d v[t,d] · v[t+l-50,d]` when `50 ≤ t + l < 562` and `0` otherwise. The two signed comparisons are decided
  by the integers the 32-bit words denote.
-/
import proofs.«107050_j21998822490744_2_alg».proof.Proof.K1Lay
import Idealize.ShloMosaic.Lib.Affine

noncomputable section

namespace Cert.K1Side

open Idealize.ShloMosaic Idealize.ShloMosaic.ValueIdx Cert.KernelIdeal Cert.KernelIdeal.Gen

/-- The row iota of the kernel. -/
abbrev rowIota : IVec S512x1 32 := iota .tc S512x1 32 [0] iota_S512x1_d0_w32

/-- The printed column: rotation amount `K`, mask offset `s`. -/
def colTerm (v9 : FVec Ideal S512x128 .f32) (K s : BitVec 32) : FVec Ideal S512x1 .f32 :=
  select
    (andi (cmpi .sge (addi rowIota (broadcast S512x1 s)) (broadcast S512x1 0#32))
      (cmpi .slt (addi rowIota (broadcast S512x1 s)) (broadcast S512x1 512#32)))
    (shapeCast S512x1
      (multiReduction .add [1] S512 (mulf v9 (dynamicRotate 0 K none v9 rotates_S512x128_d0)) 0x00000000#32
        reduces_S512x128_S512 (.inl rfl) rfl)
      shapeCasts_S512_S512x1)
    (broadcast S512x1 (Scalar.ofBits .f32 0x00000000#32))

/-- The value of column `l` at row `t`. -/
def colVal (v9 : FVec Ideal S512x128 .f32) (t : Fin 512) (l : Fin 101) : EReal :=
  if h : 50 ≤ t.val + l.val ∧ t.val + l.val < 562 then
    ∑ d : Fin 128, v9 (ix2 t d) * v9 (ix2 ⟨t.val + l.val - 50, by omega⟩ d)
  else 0

/-- The mask bit at row `t` for offset `s = l - 50`: set exactly when `50 ≤ t + l < 562`. -/
theorem mask_iff (t : Fin 512) (l : Fin 101) (s : BitVec 32) (hs : s.toInt = (l.val : Int) - 50) :
    Scalar.andi (Scalar.cmpi .sge (Scalar.addi (BitVec.ofNat 32 t.val) s) 0#32)
        (Scalar.cmpi .slt (Scalar.addi (BitVec.ofNat 32 t.val) s) 512#32) = 1#1
      ↔ 50 ≤ t.val + l.val ∧ t.val + l.val < 562 := by
  have ht := t.isLt
  have hl := l.isLt
  have hx : Affine.IsInt (Scalar.addi (BitVec.ofNat 32 t.val) s) ((t.val : Int) + l.val - 50) :=
    Affine.addi (Affine.ofNat t.val ⟨rfl, by omega⟩) (Affine.relit (Affine.word s) hs) ⟨by omega, by omega, by omega⟩
  have h0 : Affine.IsInt (0#32) 0 := Affine.ofNat 0 ⟨rfl, by omega⟩
  have h512 : Affine.IsInt (512#32) 512 := Affine.ofNat 512 ⟨rfl, by omega⟩
  constructor
  · intro h
    by_contra hn
    by_cases h1 : 50 ≤ t.val + l.val
    · have h2 : ¬ t.val + l.val < 562 := fun h2 => hn ⟨h1, h2⟩
      exact Affine.andi_fails_right (Affine.cmpi_term .sge hx h0) (Affine.slt_fails hx h512 (by omega)) h
    · exact Affine.andi_fails_left (Affine.sge_fails hx h0 (by omega)) (Affine.cmpi_term .slt hx h512) h
  · rintro ⟨h1, h2⟩
    exact Affine.andi_holds (Affine.sge_holds hx h0 (by omega)) (Affine.slt_holds hx h512 (by omega))

theorem colTerm_apply (v9 : FVec Ideal S512x128 .f32) (K s : BitVec 32) (l : Fin 101)
    (hK : K.toNat = (562 - l.val) % 512) (hs : s.toInt = (l.val : Int) - 50) (t : Fin 512) :
    colTerm v9 K s (ix2 t (0 : Fin 1)) = colVal v9 t l := by
  unfold colTerm colVal
  refine (select_apply _ _ _ _).trans ?_
  have hi : rowIota (ix2 t (0 : Fin 1)) = BitVec.ofNat 32 t.val := iota_rows_apply _ _ t 0
  have hc : (andi (cmpi .sge (addi rowIota (broadcast S512x1 s)) (broadcast S512x1 0#32))
      (cmpi .slt (addi rowIota (broadcast S512x1 s)) (broadcast S512x1 512#32))) (ix2 t (0 : Fin 1))
      = Scalar.andi (Scalar.cmpi .sge (Scalar.addi (BitVec.ofNat 32 t.val) s) 0#32)
        (Scalar.cmpi .slt (Scalar.addi (BitVec.ofNat 32 t.val) s) 512#32) := by
    show Scalar.andi (Scalar.cmpi .sge (Scalar.addi (rowIota (ix2 t (0 : Fin 1))) s) 0#32)
        (Scalar.cmpi .slt (Scalar.addi (rowIota (ix2 t (0 : Fin 1))) s) 512#32) = _
    rw [hi]
  rw [hc]
  by_cases h : 50 ≤ t.val + l.val ∧ t.val + l.val < 562
  · rw [(mask_iff t l s hs).mpr h, select_one, dif_pos h]
    refine (shapeCast_a_a1_apply _ _ t 0).trans ?_
    refine (rowSum_apply _ _ _ _ t).trans ?_
    refine Finset.sum_congr rfl fun d _ => ?_
    refine (mulf_apply _ _ _).trans ?_
    refine congrArg (v9 (ix2 t d) * ·) ?_
    have ht := t.isLt
    have hl := l.isLt
    exact dynamicRotate_rows_apply K v9 _ t d ⟨t.val + l.val - 50, by omega⟩ (by
      show t.val + l.val - 50 = (t.val + 512 - K.toNat % 512) % 512
      rw [hK]; omega)
  · have hne : ¬ Scalar.andi (Scalar.cmpi .sge (Scalar.addi (BitVec.ofNat 32 t.val) s) 0#32)
        (Scalar.cmpi .slt (Scalar.addi (BitVec.ofNat 32 t.val) s) 512#32) = 1#1 := fun hh => h ((mask_iff t l s hs).mp hh)
    rw [eq_zero_of_ne_one hne, select_zero, dif_neg h]
    exact Ideal.ofBits_zero_f32

end Cert.K1Side

end
-- ==== Proof.K1Cat.lean ====
/-
  A concatenation along the columns of single-column pieces, read at `(t, l)`: piece `l` at `(t, 0)`.
-/
import proofs.«107050_j21998822490744_2_alg».proof.Proof.K1Lay

noncomputable section

namespace Cert.K1Side

open Idealize.ShloMosaic Idealize.ShloMosaic.ValueIdx

variable {α : Type}

/-- The extents before piece `k` of pieces that all have extent one add up to `k`. -/
theorem pre_sum_ones {β : Type} (f : β → (s : Shape) × (s.Idx → α)) (G : Shape → ℕ) (hg : ∀ c, G (f c).1 = 1) :
    ∀ (cs : List β) (k : ℕ), k ≤ cs.length → ((((cs.map f).take k).map (·.1)).map G).sum = k
  | _, 0, _ => by simp
  | [], k + 1, h => absurd h (by simp)
  | c :: cs, k + 1, h => by
    simp only [List.map_cons, List.take_succ_cons, List.sum_cons, hg]
    rw [pre_sum_ones f G hg cs k (by simpa using h)]
    omega

/-- `N` columns `[a, 1]` set side by side read, at `(t, l)`, column `l` at `(t, 0)`. -/
theorem concat_cols_apply {a N : ℕ} (cs : List ((⟨2, ![a, 1]⟩ : Shape).Idx → α)) (hlen : cs.length = N)
    (h : Shape.Concatenates ((cs.map fun c => (⟨⟨2, ![a, 1]⟩, c⟩ : (s : Shape) × (s.Idx → α))).map (·.1)) ⟨2, ![a, N]⟩ 1)
    (t : Fin a) (l : Fin N) :
    concatenate ⟨2, ![a, N]⟩ 1 (cs.map fun c => (⟨⟨2, ![a, 1]⟩, c⟩ : (s : Shape) × (s.Idx → α))) h (ix2 t l)
      = (cs[l.val]'(hlen ▸ l.isLt)) (ix2 t (0 : Fin 1)) := by
  have hl : l.val < cs.length := hlen ▸ l.isLt
  refine concatenate_apply_piece (1 : Fin 2) _ h (ix2 t l) l.val (by rw [List.length_map]; exact hl) ⟨2, ![a, 1]⟩ (cs[l.val]'hl)
    (List.getElem_map _) rfl l.val ?_ (ix2 t (0 : Fin 1)) ?_ (Nat.add_zero _)
  · exact pre_sum_ones _ _ (fun _ => rfl) cs l.val hl.le
  · intro b
    match b with
    | ⟨0, _⟩ => exact fun _ => rfl
    | ⟨1, _⟩ => exact fun hb => absurd rfl hb

end Cert.K1Side

end
-- ==== Proof.K1Pay1.lean ====
/-
  The last step of the kernel read at an index: the matrix product of the windows with the window weights over
  the 101 columns, plus the bias, clipped below at zero.
-/
import proofs.«107050_j21998822490744_2_alg».proof.Proof.K1Lay

noncomputable section

namespace Cert.K1Side

open Idealize.ShloMosaic Idealize.ShloMosaic.ValueIdx Cert.KernelIdeal Cert.KernelIdeal.Gen

theorem dotW_lhs_0 (i : S512x128.Idx) (q : dot_S512x101_S128x101_S512x128_1_1_0_0_n_n.contr.Idx) : (dot_S512x101_S128x101_S512x128_1_1_0_0_n_n.lhsIdx i q 0).val = (i 0).val := by
  unfold DotDims.lhsIdx
  rw [dif_neg (show ¬(0 : Fin S512x101.rank) ∈ dot_S512x101_S128x101_S512x128_1_1_0_0_n_n.lhsBatch by decide),
    dif_pos (show (0 : Fin S512x101.rank) ∈ dot_S512x101_S128x101_S512x128_1_1_0_0_n_n.lhsNonContracting by decide)]
  rfl
theorem dotW_lhs_1 (i : S512x128.Idx) (q : dot_S512x101_S128x101_S512x128_1_1_0_0_n_n.contr.Idx) : (dot_S512x101_S128x101_S512x128_1_1_0_0_n_n.lhsIdx i q 1).val = (q ⟨0, by decide⟩).val :=
  dot_S512x101_S128x101_S512x128_1_1_0_0_n_n.lhsIdx_val_of_single rfl i q
theorem dotW_rhs_0 (i : S512x128.Idx) (q : dot_S512x101_S128x101_S512x128_1_1_0_0_n_n.contr.Idx) : (dot_S512x101_S128x101_S512x128_1_1_0_0_n_n.rhsIdx i q 0).val = (i 1).val := by
  unfold DotDims.rhsIdx
  rw [dif_neg (show ¬(0 : Fin S128x101.rank) ∈ dot_S512x101_S128x101_S512x128_1_1_0_0_n_n.rhsBatch by decide),
    dif_pos (show (0 : Fin S128x101.rank) ∈ dot_S512x101_S128x101_S512x128_1_1_0_0_n_n.rhsNonContracting by decide)]
  rfl
theorem dotW_rhs_1 (i : S512x128.Idx) (q : dot_S512x101_S128x101_S512x128_1_1_0_0_n_n.contr.Idx) : (dot_S512x101_S128x101_S512x128_1_1_0_0_n_n.rhsIdx i q 1).val = (q ⟨0, by decide⟩).val :=
  dot_S512x101_S128x101_S512x128_1_1_0_0_n_n.rhsIdx_val_of_single rfl i q

/-- The product of the windows with the window weights at `(t, o)`: the sum over the 101 columns. -/
theorem matmulW_apply (A : FVec Ideal S512x101 .bf16) (B : FVec Ideal S128x101 .bf16) (t : Fin 512) (o : Fin 128) :
    matmul dot_S512x101_S128x101_S512x128_1_1_0_0_n_n none A B (constant S512x128 .f32 0x00000000#32) (ix2 t o) = ∑ l : Fin 101, A (ix2 t l) * B (ix2 o l) := by
  simp only [matmul]
  rw [Ideal.matmul_constant_zero_apply, ← Equiv.sum_comp (contrEquiv1 dot_S512x101_S128x101_S512x128_1_1_0_0_n_n 101 rfl rfl).symm]
  refine Finset.sum_congr rfl fun k _ => ?_
  have hk := contrEquiv1_symm_val dot_S512x101_S128x101_S512x128_1_1_0_0_n_n 101 rfl rfl k
  have el : dot_S512x101_S128x101_S512x128_1_1_0_0_n_n.lhsIdx (ix2 t o) ((contrEquiv1 dot_S512x101_S128x101_S512x128_1_1_0_0_n_n 101 rfl rfl).symm k) = ix2 t k := funext fun a => Fin.ext (by
    match a with
    | ⟨0, _⟩ => exact dotW_lhs_0 _ _
    | ⟨1, _⟩ => exact (dotW_lhs_1 _ _).trans hk)
  have er : dot_S512x101_S128x101_S512x128_1_1_0_0_n_n.rhsIdx (ix2 t o) ((contrEquiv1 dot_S512x101_S128x101_S512x128_1_1_0_0_n_n 101 rfl rfl).symm k) = ix2 o k := funext fun a => Fin.ext (by
    match a with
    | ⟨0, _⟩ => exact dotW_rhs_0 _ _
    | ⟨1, _⟩ => exact (dotW_rhs_1 _ _).trans hk)
  rw [el, er]

theorem pay1_apply (W : FVec Ideal S512x101 .f32) (w : Vec Ideal S128x101 .f32) (bb : Vec Ideal S128 .f32)
    (t : Fin 512) (o : Fin 128) :
    k1_pay1 (F := Ideal) W w bb (ix3 (0 : Fin 1) t o)
      = max ((∑ l : Fin 101, W (ix2 t l) * w (ix2 o l)) + bb (ix1 o)) 0 := by
  unfold k1_pay1
  refine (shapeCast_ab_1ab_apply _ _ (0 : Fin 1) t o).trans ?_
  refine (maximumf_apply _ _ _).trans ?_
  refine congrArg₂ max ?_ Ideal.ofBits_zero_f32
  refine (addf_apply _ _ _).trans ?_
  refine congrArg₂ (· + ·) ?_ ?_
  · exact matmulW_apply _ _ t o
  · refine (broadcastTo_1b_ab_apply _ _ t o).trans ?_
    exact shapeCast_a_1a_apply bb _ (0 : Fin 1) o

end Cert.K1Side

end
-- ==== Proof.K1Pay2.lean ====
/-
  The normalised rows: the kernel's `x / max(√(Σ_d x²), ε)` read at `(t, d)` is the specification's `xn`.
-/
import proofs.«107050_j21998822490744_2_alg».proof.Proof.K1Lay

noncomputable section

namespace Cert.K1Side

open Idealize.ShloMosaic Idealize.ShloMosaic.ValueIdx Cert.KernelIdeal Cert.KernelIdeal.Gen

/-- The block's rows as a function of time and feature. -/
abbrev rows (x0 : Vec Ideal S1x512x128 .f32) : Fin 512 → Fin 128 → EReal :=
  fun t d => x0 (ix3 (0 : Fin 1) t d)

theorem pay2_apply (x0 : Vec Ideal S1x512x128 .f32) (t : Fin 512) (d : Fin 128) :
    k1_pay2 (F := Ideal) x0 (ix2 t d) = Cert.Spec.xn (rows x0) t d := by
  unfold k1_pay2
  refine (divf_apply _ _ _).trans ?_
  unfold Cert.Spec.xn Cert.Spec.nrm
  have e1 : ∀ (t : Fin 512) (d : Fin 128),
      shapeCast S512x128 x0 shapeCasts_S1x512x128_S512x128 (ix2 t d) = x0 (ix3 (0 : Fin 1) t d) :=
    fun t d => shapeCast_1ab_ab_apply x0 _ t d
  refine congrArg₂ Ideal.div (e1 t d) ?_
  refine (broadcastTo_a1_ab_apply _ _ t d).trans ?_
  refine (maximumf_apply _ _ _).trans ?_
  refine congrArg₂ max ?_ rfl
  show Ideal.sqrt _ = Ideal.sqrt _
  refine congrArg Ideal.sqrt ?_
  refine (shapeCast_a_a1_apply _ _ t 0).trans ?_
  refine (rowSum_apply _ _ _ _ t).trans ?_
  refine Finset.sum_congr rfl fun j _ => ?_
  refine (mulf_apply _ _ _).trans ?_
  rw [e1 t j]

end Cert.K1Side

end
-- ==== Proof.K1Value.lean ====
/-
  The value the second kernel stores for one batch, read at an index: the specification's `out2` of the block's
  rows. The stored value is the last payload (matrix product with the window weights, bias, clip at zero) applied
  to the windows; the windows at `(t, l)` are column `l` at row `t`; column `l` at row `t` is the masked
  similarity of the normalised rows `t` and `t + l - 50`; and the normalised rows are the specification's.
-/
import proofs.«107050_j21998822490744_2_alg».proof.Proof.K1Cols
import proofs.«107050_j21998822490744_2_alg».proof.Proof.K1Pay1
import proofs.«107050_j21998822490744_2_alg».proof.Proof.K1Pay2

noncomputable section

namespace Cert.K1Side

open Idealize.ShloMosaic Idealize.ShloMosaic.ValueIdx Cert.KernelIdeal Cert.KernelIdeal.Gen

/-- The value stored for one batch: the block `x0`, the window weights `w`, the bias `bb`. -/
def stage2Term (x0 : Vec Ideal S1x512x128 .f32) (w : Vec Ideal S128x101 .f32) (bb : Vec Ideal S128 .f32) :
    FVec Ideal S1x512x128 .f32 :=
  k1_pay1 (windows x0) w bb

/-- A column's value over the kernel's normalised rows is the specification's windowed similarity. -/
theorem colVal_eq_win (x0 : Vec Ideal S1x512x128 .f32) (t : Fin 512) (l : Fin 101) :
    colVal (k1_pay2 x0) t l = Cert.Spec.win (rows x0) t l := by
  unfold colVal Cert.Spec.win Cert.Spec.sim
  by_cases h : 50 ≤ t.val + l.val ∧ t.val + l.val < 562
  · rw [dif_pos h, dif_pos h]
    exact Finset.sum_congr rfl fun d _ => by rw [pay2_apply, pay2_apply]
  · rw [dif_neg h, dif_neg h]

/-- The windows are the specification's windowed similarity. -/
theorem windows_eq_win (x0 : Vec Ideal S1x512x128 .f32) (t : Fin 512) (l : Fin 101) :
    windows x0 (ix2 t l) = Cert.Spec.win (rows x0) t l :=
  ((windows_apply x0 t l).trans (cols_apply x0 t l)).trans (colVal_eq_win x0 t l)

theorem stage2_apply (x0 : Vec Ideal S1x512x128 .f32) (w : Vec Ideal S128x101 .f32) (bb : Vec Ideal S128 .f32)
    (t : Fin 512) (o : Fin 128) :
    stage2Term x0 w bb (ix3 (0 : Fin 1) t o) = Cert.Spec.out2 (rows x0) w bb t o := by
  unfold stage2Term Cert.Spec.out2
  refine (pay1_apply _ w bb t o).trans ?_
  refine congrArg (fun S => max (S + bb (ix1 o)) 0) ?_
  exact Finset.sum_congr rfl fun l _ => congrArg (· * w (ix2 o l)) (windows_eq_win x0 t l)

end Cert.K1Side

end
-- ==== Proof.KI.Val1.lean ====
/-
  What the second region leaves in its output array, at the ideal instance.

  Point b of the grid of 4 works on batch b: its input blocks are batch b of the projected array and the whole
  window weights and bias, and its output block, written back at every point, is batch b of the output. The body's
  one store is the last payload applied to the windows of the block's rows, which at (0, t, o) is the
  specification's `out2` of those rows. The four batches' blocks cover the array.
-/
import proofs.«107050_j21998822490744_2_alg».proof.Proof.KI.Frame
import proofs.«107050_j21998822490744_2_alg».proof.Proof.KI.Pieces0
import proofs.«107050_j21998822490744_2_alg».proof.Proof.K1Value
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

theorem hz1_k1 : (![0] : Fin 1 → ℕ) = fun _ => 0 := by funext a; fin_cases a; rfl

/-- The output block the body leaves is the stored value of its three input blocks. -/
theorem out1_eq (c : Dev nD) (i : grid1.Coords) (arg1 : Memref sig .tc .vmem S1x512x128 .f32) (harg1 : arg1.IsWhole) (arg2 : Memref sig .tc .vmem S128x101 .f32) (harg2 : arg2.IsWhole) (arg3 : Memref sig .tc .vmem S128 .f32) (harg3 : arg3.IsWhole) (arg4 : Memref sig .tc .vmem S1x512x128 .f32) (harg4 : arg4.IsWhole)
    (x0 : Vec Ideal S1x512x128 .f32) (x1 : Vec Ideal S128x101 .f32) (x2 : Vec Ideal S128 .f32) :
    out1_3 (F := Ideal) c i arg1 harg1 arg2 harg2 arg3 harg3 arg4 harg4 x0 x1 x2 = Cert.K1Side.stage2Term x0 x1 x2 := by
  unfold out1_3
  rw [View.read_writes_eq_canon _ _ _ (cover1_3 c i arg1 harg1 arg2 harg2 arg3 harg3 arg4 harg4 x0 x1 x2)]
  unfold kernelRun1
  dsimp only
  rw [View.canon_unit_zero hz3]
  sl_unfold_run_names
  simp only [View.readAt_eq_ld, Memref.IsWhole.read_unread, View.ld_unit_zero (S := S1x512x128) hz3, View.ld_unit_zero (S := S128x101) hz2, View.ld_unit_zero (S := S128) hz1_k1]
  rfl

section Array

variable (V : (c : Dev nD) → (b : Ref sig .tc) → Buf (Elt Ideal) ((c : Thread nD τ).loc b))

/-- The second region's output array: for each batch, the specification's `out2` of that batch's projected rows,
    the window weights and the bias, as the region finds them. -/
def G1 (c : Dev nD) : S4x512x128.Idx → EReal := fun i =>
  Cert.Spec.out2 (fun t d => (V c main_v8 : S4x512x128.Idx → EReal) (ix3 (i 0) t d))
    (V c main_arg3 : S128x101.Idx → EReal) (V c main_arg4 : S128.Idx → EReal) (i 1) (i 2)

/-- The printed index maps, decided over the grid: the projected block and the output block at (batch, 0, 0), the
    window weights and the bias whole. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val ∧ win1_3.index t (1 : Fin 3) = 0 ∧ win1_3.index t (2 : Fin 3) = 0 :=
  (by decide +kernel : ∀ t : Fin grid1.N, _)

theorem N1 : cfg1.N = 4 := N_1

/-- The projected block read at (0, tt, d): row tt of batch t. -/
theorem blk1_0 (c : Dev nD) (t : Fin cfg1.N) (tt : Fin 512) (d : Fin 128) (hb : t.val < 4) :
    iblk1 V c 0 t (ix3 (0 : Fin 1) tt d) = (V c main_v8 : S4x512x128.Idx → EReal) (ix3 (⟨t.val, hb⟩ : Fin 4) tt d) := by
  obtain ⟨e0, e1, e2, -⟩ := idx_facts1 t
  show V c main_v8 (((cfg1.win 0).blk t).view.emb (ix3 (0 : Fin 1) tt d)) = _
  refine congrArg (V c main_v8) (funext fun a => Fin.ext ?_)
  match a with
  | ⟨0, _⟩ => show win1_0.index t (0 : Fin 3) * 1 + 1 * 0 = t.val; omega
  | ⟨1, _⟩ => show win1_0.index t (1 : Fin 3) * 512 + 1 * tt.val = tt.val; omega
  | ⟨2, _⟩ => show win1_0.index t (2 : Fin 3) * 128 + 1 * d.val = d.val; omega

/-- The window-weights block is the whole array. -/
theorem blk1_1 (c : Dev nD) (t : Fin cfg1.N) (o : Fin 128) (l : Fin 101) :
    iblk1 V c 1 t (ix2 o l) = (V c main_arg3 : S128x101.Idx → EReal) (ix2 o l) := by
  obtain ⟨-, -, -, e0, e1, -⟩ := idx_facts1 t
  show V c main_arg3 (((cfg1.win 1).blk t).view.emb (ix2 o l)) = _
  refine congrArg (V c main_arg3) (funext fun a => Fin.ext ?_)
  match a with
  | ⟨0, _⟩ => show win1_1.index t (0 : Fin 2) * 128 + 1 * o.val = o.val; omega
  | ⟨1, _⟩ => show win1_1.index t (1 : Fin 2) * 101 + 1 * l.val = l.val; omega

/-- The bias block is the whole array. -/
theorem blk1_2 (c : Dev nD) (t : Fin cfg1.N) (o : Fin 128) :
    iblk1 V c 2 t (ix1 o) = (V c main_arg4 : S128.Idx → EReal) (ix1 o) := by
  obtain ⟨-, -, -, -, -, e0, -⟩ := idx_facts1 t
  show V c main_arg4 (((cfg1.win 2).blk t).view.emb (ix1 o)) = _
  refine congrArg (V c main_arg4) (funext fun a => Fin.ext ?_)
  match a with
  | ⟨0, _⟩ => show win1_2.index t (0 : Fin 1) * 128 + 1 * o.val = o.val; omega

theorem out2_congr {p p' : Fin 512 → Fin 128 → EReal} {w w' : Cert.Spec.A2 128 101} {b b' : Cert.Spec.A1 128}
    (hp : p = p') (hw : w = w') (hb : b = b') (tt : Fin 512) (o : Fin 128) :
    Cert.Spec.out2 p w b tt o = Cert.Spec.out2 p' w' b' tt o := by subst hp hw hb; rfl

/-- WHAT POINT `t` WRITES BACK is block `t` of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3, out1_eq]
  have hN : t.val < 4 := lt_of_lt_of_eq t.isLt N1
  obtain ⟨-, -, -, -, -, -, e0, e1, e2⟩ := idx_facts1 t
  funext j
  have hj0 : (j 0).val < 1 := (j 0).isLt
  have hj1 : (j 1).val < 512 := (j 1).isLt
  have hj2 : (j 2).val < 128 := (j 2).isLt
  have e : (cfg1.win 3).xinj (grid1.coords t) j = ix3 (0 : Fin 1) (⟨(j 1).val, hj1⟩ : Fin 512) (⟨(j 2).val, hj2⟩ : Fin 128) :=
    funext fun a => Fin.ext (by
      match a with
      | ⟨0, _⟩ => show (j 0).val = 0; omega
      | ⟨1, _⟩ => rfl
      | ⟨2, _⟩ => rfl)
  have he : ((cfg1.win 3).blk t).view.emb j = ix3 (⟨t.val, hN⟩ : Fin 4) (⟨(j 1).val, hj1⟩ : Fin 512) (⟨(j 2).val, hj2⟩ : Fin 128) :=
    funext fun a => Fin.ext (by
      match a with
      | ⟨0, _⟩ => show win1_3.index t (0 : Fin 3) * 1 + 1 * (j 0).val = t.val; omega
      | ⟨1, _⟩ => show win1_3.index t (1 : Fin 3) * 512 + 1 * (j 1).val = (j 1).val; omega
      | ⟨2, _⟩ => show win1_3.index t (2 : Fin 3) * 128 + 1 * (j 2).val = (j 2).val; omega)
  show Cert.K1Side.stage2Term (iblk1 V c 0 t) (iblk1 V c 1 t) (iblk1 V c 2 t) ((cfg1.win 3).xinj (grid1.coords t) j)
    = G1 V c (((cfg1.win 3).blk t).view.emb j)
  rw [e, he, Cert.K1Side.stage2_apply]
  unfold G1
  refine out2_congr ?_ ?_ ?_ _ _
  · exact funext fun tt => funext fun d => blk1_0 V c t tt d hN
  · exact funext fun i => by rw [eq_ix2 i]; exact blk1_1 V c t _ _
  · exact funext fun i => by rw [eq_ix1 i]; exact blk1_2 V c t _

/-- An index of the array is in point `t`'s block iff each coordinate is in the block's range on its axis. -/
theorem mem_blk1 (t : Fin cfg1.N) (i : S4x512x128.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v9).slice (win1_3.rect t)).set ↔ _
  rw [View.set_slice_whole, Rect.mem_set_unit]
  exact Iff.rfl

/-- Batch `b` of the output array is point `b`'s block: the blocks cover the array. -/
theorem cover1 (i : S4x512x128.Idx) : ∃ t : Fin cfg1.N, (cfg1.win 3).flush t = true ∧ i ∈ ((cfg1.win 3).blk t).view.set := by
  have hi0 : (i 0).val < 4 := (i 0).isLt
  have hi1 : (i 1).val < 512 := (i 1).isLt
  have hi2 : (i 2).val < 128 := (i 2).isLt
  refine ⟨⟨(i 0).val, by rw [N1]; exact hi0⟩, flush1_3 _, ?_⟩
  obtain ⟨-, -, -, -, -, -, e0, e1, e2⟩ := idx_facts1 ⟨(i 0).val, by rw [N1]; exact hi0⟩
  rw [mem_blk1]
  intro a
  match a with
  | ⟨0, _⟩ => show win1_3.index _ (0 : Fin 3) * 1 ≤ (i 0).val ∧ (i 0).val < win1_3.index _ (0 : Fin 3) * 1 + 1; rw [e0]; show (i 0).val * 1 ≤ (i 0).val ∧ (i 0).val < (i 0).val * 1 + 1; omega
  | ⟨1, _⟩ => show win1_3.index _ (1 : Fin 3) * 512 ≤ (i 1).val ∧ (i 1).val < win1_3.index _ (1 : Fin 3) * 512 + 512; rw [e1]; omega
  | ⟨2, _⟩ => show win1_3.index _ (2 : Fin 3) * 128 ≤ (i 2).val ∧ (i 2).val < win1_3.index _ (2 : Fin 3) * 128 + 128; rw [e2]; omega

/-- THE ARRAY after the second region: `G1` of the arrays as the region finds them. -/
theorem final1 (c : Dev nD) : (dat1 V c).arrAt 3 cfg1.N = G1 V c :=
  (dat1 V c).arrAt_eq_of_cover 3 (G1 V c) (fun t _ => flushed1_eq V c t) cover1

/-- The same array as the specification's `result` of the projected array. -/
theorem G1_eq_result (c : Dev nD) :
    G1 V c = Cert.Spec.result (fun b t d => (V c main_v8 : S4x512x128.Idx → EReal) (ix3 b t d))
      (V c main_arg3 : S128x101.Idx → EReal) (V c main_arg4 : S128.Idx → EReal) := rfl

end Array

end Cert.KernelIdeal.Hand

end
-- ==== Proof.KI.Pre.lean ====
/-
  What the host operations before the first region leave, at the ideal instance: the two spatial means are the same
  terms as the reference's means of the launch arguments, and the two weight arrays are the first and the last 1024
  columns of the weight argument.
-/
import proofs.«107050_j21998822490744_2_alg».proof.Proof.KI.Whole
import proofs.«107050_j21998822490744_2_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The first spatial mean is the reference's, of the first launch argument. -/
theorem pre_v2 :
    E1 m c main_v2 = Cert.ReferenceIdeal.Read.val_main_v2 (F := Ideal) (m ((c : Thread nD τ).loc main_arg0)) := by
  show StableHlo.after hostOps0 (fun b => m (c, b)) (Proc.devRef .tc main_v2) = _
  after_results
  rfl

/-- The second spatial mean is the reference's, of the second launch argument. -/
theorem pre_v5 :
    E1 m c main_v5 = Cert.ReferenceIdeal.Read.val_main_v5 (F := Ideal) (m ((c : Thread nD τ).loc main_arg1)) := by
  show StableHlo.after hostOps0 (fun b => m (c, b)) (Proc.devRef .tc main_v5) = _
  after_results
  rfl

/-- The first weight array: columns 0 … 1023 of the weight argument. -/
theorem pre_v6 (d : Fin 128) (cc : Fin 1024) :
    E1 m c main_v6 (ix2 d cc) = m ((c : Thread nD τ).loc main_arg2) (ix2 d (⟨cc.val, by omega⟩ : Fin 2048)) := by
  have e : (E1 m c main_v6 : S128x1024.Idx → EReal)
      = extractStridedSlice S128x1024 ![0, 0] (m ((c : Thread nD τ).loc main_arg2)) Facts₀.slices_S128x2048_S128x1024_0_0 := by
    show StableHlo.after hostOps0 (fun b => m (c, b)) (Proc.devRef .tc main_v6) = _
    after_results
  refine (congrFun e (ix2 d cc)).trans ?_
  exact extractStridedSlice_apply _ _ _ (ix2 d cc) (ix2 d (⟨cc.val, by omega⟩ : Fin 2048)) (fun a => match a with
    | ⟨0, _⟩ => by show d.val = 0 + d.val; omega
    | ⟨1, _⟩ => by show cc.val = 0 + cc.val; omega)

/-- The second weight array: columns 1024 … 2047 of the weight argument. -/
theorem pre_v7 (d : Fin 128) (cc : Fin 1024) :
    E1 m c main_v7 (ix2 d cc) = m ((c : Thread nD τ).loc main_arg2) (ix2 d (⟨1024 + cc.val, by omega⟩ : Fin 2048)) := by
  have e : (E1 m c main_v7 : S128x1024.Idx → EReal)
      = extractStridedSlice S128x1024 ![0, 1024] (m ((c : Thread nD τ).loc main_arg2)) Facts₀.slices_S128x2048_S128x1024_0_1024 := by
    show StableHlo.after hostOps0 (fun b => m (c, b)) (Proc.devRef .tc main_v7) = _
    after_results
  refine (congrFun e (ix2 d cc)).trans ?_
  exact extractStridedSlice_apply _ _ _ (ix2 d cc) (ix2 d (⟨1024 + cc.val, by omega⟩ : Fin 2048)) (fun a => match a with
    | ⟨0, _⟩ => by show d.val = 0 + d.val; omega
    | ⟨1, _⟩ => by show 1024 + cc.val = 1024 + cc.val; omega)

end Cert.KernelIdeal.Hand

end
-- ==== Proof.RefA1.lean ====
/-
  The integer arrays of start indices: at (t, l) the first component is t and the second is t + l, as 32-bit words;
  both are small non-negative numbers, so the wrap of negative indices never applies.
-/
import proofs.«107050_j21998822490744_2_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx

/-- A number below 2^31 as a 32-bit word reads back, signed, as itself. -/
theorem toInt_ofNat_small (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_cond, hn, if_pos (by omega)]

/-- Such a word is not below zero as a signed number. -/
theorem slt_zero_of_small (n : Nat) (h : n < 2147483648) : IntOp.cmpi .slt (BitVec.ofNat 32 n) 0#32 = 0#1 := by
  show BitVec.ofBool (decide ((BitVec.ofNat 32 n).toInt < (0#32).toInt)) = 0#1
  rw [toInt_ofNat_small n h, BitVec.toInt_zero, decide_eq_false (by omega)]
  rfl

/-- Two small words add as numbers. -/
theorem addi_ofNat (a b : Nat) : IntOp.addi (BitVec.ofNat 32 a) (BitVec.ofNat 32 b) = BitVec.ofNat 32 (a + b) := by
  show BitVec.ofNat 32 a + BitVec.ofNat 32 b = BitVec.ofNat 32 (a + b)
  rw [BitVec.ofNat_add]

/-- The row coordinate as a word: the time index. -/
theorem v20_at (t : Fin 512) (z : Fin 1) : val_main_v20 (F := Ideal) (ix2 t z) = BitVec.ofNat 32 t.val := by
  rw [val_main_v20_apply, val_main_v19_apply]

/-- The wrapped row coordinate is the time index itself. -/
theorem v30_at (t : Fin 512) (z : Fin 1) : val_main_v30 (F := Ideal) (ix2 t z) = BitVec.ofNat 32 t.val := by
  rw [val_main_v30_apply, val_main_v27_apply, val_main_v26_apply, val_main_c_5_apply, v20_at,
    slt_zero_of_small _ (Nat.lt_trans t.isLt (by decide)), select_zero]

/-- The first start-index component at (t, l) is t. -/
theorem v37_at (t : Fin 512) (l : Fin 101) (z : Fin 1) :
    val_main_v37 (F := Ideal) (ix3 t l z) = BitVec.ofNat 32 t.val := by
  rw [val_main_v37_apply, val_main_v36_apply]
  exact v30_at t ⟨0, Nat.one_pos⟩

/-- The column sum at (t, l) is t + l. -/
theorem v25_at (t : Fin 512) (l : Fin 101) : val_main_v25 (F := Ideal) (ix2 t l) = BitVec.ofNat 32 (t.val + l.val) := by
  rw [val_main_v25_apply, val_main_v23_apply, val_main_v24_apply, val_main_v22_apply, val_main_v21_apply]
  refine (congrArg (fun w => IntOp.addi w _) (v20_at t ⟨0, Nat.one_pos⟩)).trans ?_
  exact addi_ofNat t.val l.val

/-- The wrapped column sum is t + l itself. -/
theorem v35_at (t : Fin 512) (l : Fin 101) : val_main_v35 (F := Ideal) (ix2 t l) = BitVec.ofNat 32 (t.val + l.val) := by
  rw [val_main_v35_apply, val_main_v32_apply, val_main_v31_apply, val_main_c_7_apply, v25_at,
    slt_zero_of_small _ (by have := t.isLt; have := l.isLt; omega), select_zero]

/-- The second start-index component at (t, l) is t + l. -/
theorem v38_at (t : Fin 512) (l : Fin 101) (z : Fin 1) :
    val_main_v38 (F := Ideal) (ix3 t l z) = BitVec.ofNat 32 (t.val + l.val) := by
  rw [val_main_v38_apply]
  exact v35_at t l

/-- The joined start indices at (t, l, 0): t. -/
theorem v39_at0 (t : Fin 512) (l : Fin 101) :
    val_main_v39 (F := Ideal) (ix3 t l (⟨0, by omega⟩ : Fin 2)) = BitVec.ofNat 32 t.val := by
  unfold val_main_v39
  refine (concatenate_pair_apply_left (2 : Fin 3) (val_main_v37 (F := Ideal)) (val_main_v38 (F := Ideal))
    Facts₀.concatenates_S512x101x1_S512x101x1_S512x101x2_d2 (ix3 t l (⟨0, by omega⟩ : Fin 2)) rfl
    (ix3 t l (⟨0, Nat.one_pos⟩ : Fin 1)) (fun b => match b with
      | ⟨0, _⟩ => rfl
      | ⟨1, _⟩ => rfl
      | ⟨2, _⟩ => rfl)).trans ?_
  exact v37_at t l _

/-- The joined start indices at (t, l, 1): t + l. -/
theorem v39_at1 (t : Fin 512) (l : Fin 101) :
    val_main_v39 (F := Ideal) (ix3 t l (⟨1, by omega⟩ : Fin 2)) = BitVec.ofNat 32 (t.val + l.val) := by
  unfold val_main_v39
  refine (concatenate_pair_apply_right (2 : Fin 3) (val_main_v37 (F := Ideal)) (val_main_v38 (F := Ideal))
    Facts₀.concatenates_S512x101x1_S512x101x1_S512x101x2_d2 (ix3 t l (⟨1, by omega⟩ : Fin 2)) rfl rfl
    (ix3 t l (⟨0, Nat.one_pos⟩ : Fin 1)) (fun b hb => match b, hb with
      | ⟨0, _⟩, _ => rfl
      | ⟨1, _⟩, _ => rfl
      | ⟨2, _⟩, hb => absurd rfl hb) rfl).trans ?_
  exact v38_at t l _

end Cert.RefSide

end
-- ==== Proof.RefA2.lean ====
/-
  The gather read at an index: at (b, t, l) it reads the padded similarity at (b, t, t + l); and the padded similarity
  read there: the similarity at (b, t, t + l - 50) when that column exists, and zero otherwise.
-/
import proofs.«107050_j21998822490744_2_alg».proof.Proof.RefA1
import Idealize.ShloMosaic.Lib.KernelVsHost

noncomputable section

namespace Cert.RefSide

open Cert.ReferenceIdeal Cert.ReferenceIdeal.Gen Cert.ReferenceIdeal.Read Idealize.ShloMosaic Idealize.ShloMosaic.ValueIdx

/-- A small number as a 32-bit word reads back, signed and cut at zero, as itself. -/
theorem toNat_toInt_ofNat_small (n : Nat) (h : n < 2147483648) : (BitVec.ofNat 32 n).toInt.toNat = n := by
  rw [toInt_ofNat_small n h, Int.toNat_natCast]

/-- The gather's operand coordinate on the batch axis: the result's own. -/
theorem gather_coord0 (idx : IVec S512x101x2 32) (b : Fin 4) (t : Fin 512) (l : Fin 101) :
    gather_S4x512x612_S512x101x2_S4x512x101_0_12_n_n_12_2_411.start (ix3 b t l) idx (0 : Fin 3) + gather_S4x512x612_S512x101x2_S4x512x101_0_12_n_n_12_2_411.batchCoord (ix3 b t l) (0 : Fin 3)
      + gather_S4x512x612_S512x101x2_S4x512x101_0_12_n_n_12_2_411.offCoord (ix3 b t l) (0 : Fin 3) = b.val := by
  rw [GatherDims.batchCoord_eq_zero _ _ _ List.not_mem_nil]
  unfold GatherDims.start
  rw [dif_neg (show ¬(0 : Fin 3) ∈ gather_S4x512x612_S512x101x2_S4x512x101_0_12_n_n_12_2_411.startIndexMap by decide)]
  unfold GatherDims.offCoord
  rw [dif_pos (show (0 : Fin 3) ∈ gather_S4x512x612_S512x101x2_S4x512x101_0_12_n_n_12_2_411.sKept by decide)]
  have key : ∀ h : List.idxOf (0 : Fin 3) gather_S4x512x612_S512x101x2_S4x512x101_0_12_n_n_12_2_411.sKept < gather_S4x512x612_S512x101x2_S4x512x101_0_12_n_n_12_2_411.offsetDims.length,
      gather_S4x512x612_S512x101x2_S4x512x101_0_12_n_n_12_2_411.offsetDims[List.idxOf (0 : Fin 3) gather_S4x512x612_S512x101x2_S4x512x101_0_12_n_n_12_2_411.sKept]'h = (0 : Fin 3) := by decide
  refine (congrArg (fun z => 0 + 0 + ((ix3 b t l) z).val) (key _)).trans ?_
  show 0 + 0 + b.val = b.val
  omega

/-- The gather's operand coordinate on the row axis: the first start-index component. -/
theorem gather_coord1 (idx : IVec S512x101x2 32) (b : Fin 4) (t : Fin 512) (l : Fin 101)
    (h0 : (idx (ix3 t l (⟨0, by omega⟩ : Fin 2))).toInt.toNat = t.val) :
    gather_S4x512x612_S512x101x2_S4x512x101_0_12_n_n_12_2_411.start (ix3 b t l) idx (1 : Fin 3) + gather_S4x512x612_S512x101x2_S4x512x101_0_12_n_n_12_2_411.batchCoord (ix3 b t l) (1 : Fin 3)
      + gather_S4x512x612_S512x101x2_S4x512x101_0_12_n_n_12_2_411.offCoord (ix3 b t l) (1 : Fin 3) = t.val := by
  rw [GatherDims.batchCoord_eq_zero _ _ _ List.not_mem_nil,
    GatherDims.offCoord_eq_zero _ _ _ (show ¬(1 : Fin 3) ∈ gather_S4x512x612_S512x101x2_S4x512x101_0_12_n_n_12_2_411.sKept by decide)]
  unfold GatherDims.start
  rw [dif_pos (show (1 : Fin 3) ∈ gather_S4x512x612_S512x101x2_S4x512x101_0_12_n_n_12_2_411.startIndexMap by decide)]
  have hsi : gather_S4x512x612_S512x101x2_S4x512x101_0_12_n_n_12_2_411.siIdx (ix3 b t l)
      ⟨List.idxOf (1 : Fin 3) gather_S4x512x612_S512x101x2_S4x512x101_0_12_n_n_12_2_411.startIndexMap,
        List.idxOf_lt_length_iff.2 (by decide)⟩ = ix3 t l (⟨0, by omega⟩ : Fin 2) := by
    funext c; refine Fin.ext ?_
    match c with
    | ⟨0, _⟩ => rfl
    | ⟨1, _⟩ => rfl
    | ⟨2, _⟩ => rfl
  rw [hsi, h0]
  show min t.val (512 - 1) + 0 + 0 = t.val
  have := t.isLt
  omega

/-- The gather's operand coordinate on the column axis: the second start-index component. -/
theorem gather_coord2 (idx : IVec S512x101x2 32) (b : Fin 4) (t : Fin 512) (l : Fin 101)
    (h1 : (idx (ix3 t l (⟨1, by omega⟩ : Fin 2))).toInt.toNat = t.val + l.val) :
    gather_S4x512x612_S512x101x2_S4x512x101_0_12_n_n_12_2_411.start (ix3 b t l) idx (2 : Fin 3) + gather_S4x512x612_S512x101x2_S4x512x101_0_12_n_n_12_2_411.batchCoord (ix3 b t l) (2 : Fin 3)
      + gather_S4x512x612_S512x101x2_S4x512x101_0_12_n_n_12_2_411.offCoord (ix3 b t l) (2 : Fin 3) = t.val + l.val := by
  rw [GatherDims.batchCoord_eq_zero _ _ _ List.not_mem_nil,
    GatherDims.offCoord_eq_zero _ _ _ (show ¬(2 : Fin 3) ∈ gather_S4x512x612_S512x101x2_S4x512x101_0_12_n_n_12_2_411.sKept by decide)]
  unfold GatherDims.start
  rw [dif_pos (show (2 : Fin 3) ∈ gather_S4x512x612_S512x101x2_S4x512x101_0_12_n_n_12_2_411.startIndexMap by decide)]
  have hsi : gather_S4x512x612_S512x101x2_S4x512x101_0_12_n_n_12_2_411.siIdx (ix3 b t l)
      ⟨List.idxOf (2 : Fin 3) gather_S4x512x612_S512x101x2_S4x512x101_0_12_n_n_12_2_411.startIndexMap,
        List.idxOf_lt_length_iff.2 (by decide)⟩ = ix3 t l (⟨1, by omega⟩ : Fin 2) := by
    funext c; refine Fin.ext ?_
    match c with
    | ⟨0, _⟩ => rfl
    | ⟨1, _⟩ => rfl
    | ⟨2, _⟩ => rfl
  rw [hsi, h1]
  show min (t.val + l.val) (612 - 1) + 0 + 0 = t.val + l.val
  have := t.isLt
  have := l.isLt
  omega

/-- The gather read at (b, t, l), from the two start-index components there. -/
theorem gather_at {α : Type} (y : S4x512x612.Idx → α) (idx : IVec S512x101x2 32) (b : Fin 4) (t : Fin 512) (l : Fin 101)
    (h0 : (idx (ix3 t l (⟨0, by omega⟩ : Fin 2))).toInt.toNat = t.val)
    (h1 : (idx (ix3 t l (⟨1, by omega⟩ : Fin 2))).toInt.toNat = t.val + l.val) :
    Host.gather gather_S4x512x612_S512x101x2_S4x512x101_0_12_n_n_12_2_411 y idx (ix3 b t l)
      = y (ix3 b t (⟨t.val + l.val, by omega⟩ : Fin 612)) := by
  unfold Host.gather
  refine congrArg y (funext fun a => Fin.ext ?_)
  match a with
  | ⟨0, _⟩ => exact gather_coord0 idx b t l
  | ⟨1, _⟩ => exact gather_coord1 idx b t l h0
  | ⟨2, _⟩ => exact gather_coord2 idx b t l h1

/-- The gathered windows at (b, t, l): the padded similarity at (b, t, t + l). -/
theorem v40_at (x0 x1 : (⟨S4x1024x512x4x4, .f32⟩ : BufTy).Contents (Elt Ideal)) (x2 : (⟨S128x2048, .f32⟩ : BufTy).Contents (Elt Ideal))
    (b : Fin 4) (t : Fin 512) (l : Fin 101) :
    val_main_v40 (F := Ideal) x0 x1 x2 (ix3 b t l)
      = val_main_v18 (F := Ideal) x0 x1 x2 (ix3 b t (⟨t.val + l.val, by omega⟩ : Fin 612)) := by
  unfold val_main_v40
  refine gather_at _ _ b t l ?_ ?_
  · rw [v39_at0, toNat_toInt_ofNat_small _ (Nat.lt_trans t.isLt (by decide))]
  · rw [v39_at1, toNat_toInt_ofNat_small _ (by have := t.isLt; have := l.isLt; omega)]

/-- The padding value: the integer zero converted, the real zero. -/
theorem pad_value : val_main_call0_v0 (F := Ideal) (Shape.Idx.first Facts₀.h_S_) = (0 : EReal) := by
  rw [val_main_call0_v0_apply, val_main_c_apply]
  show ((((0#32 : BitVec 32).toInt : ℤ) : ℝ) : EReal) = 0
  simp

/-- The padded similarity inside the operand: column c + 50 reads column c. -/
theorem v18_inside (x0 x1 : (⟨S4x1024x512x4x4, .f32⟩ : BufTy).Contents (Elt Ideal)) (x2 : (⟨S128x2048, .f32⟩ : BufTy).Contents (Elt Ideal))
    (b : Fin 4) (t : Fin 512) (c : Fin 612) (s : Fin 512) (hs : c.val = 50 + s.val) :
    val_main_v18 (F := Ideal) x0 x1 x2 (ix3 b t c) = val_main_v17 (F := Ideal) x0 x1 x2 (ix3 b t s) := by
  unfold val_main_v18
  refine pad_apply_of_inside _ _ _ _ _ Facts₀.pads_S4x512x512_S4x512x612_000_000_50500 Facts₀.h_S_ (ix3 b t c) (ix3 b t s)
    (fun a => match a with
      | ⟨0, _⟩ => by show b.val = 0 + b.val * (0 + 1); omega
      | ⟨1, _⟩ => by show t.val = 0 + t.val * (0 + 1); omega
      | ⟨2, _⟩ => by show c.val = 50 + s.val * (0 + 1); omega)

/-- The padded similarity outside the operand's columns is zero. -/
theorem v18_outside (x0 x1 : (⟨S4x1024x512x4x4, .f32⟩ : BufTy).Contents (Elt Ideal)) (x2 : (⟨S128x2048, .f32⟩ : BufTy).Contents (Elt Ideal))
    (b : Fin 4) (t : Fin 512) (c : Fin 612) (hc : ¬(50 ≤ c.val ∧ c.val < 562)) :
    val_main_v18 (F := Ideal) x0 x1 x2 (ix3 b t c) = (0 : EReal) := by
  unfold val_main_v18
  refine (pad_apply_of_not_inside _ _ _ _ _ Facts₀.pads_S4x512x512_S4x512x612_000_000_50500 Facts₀.h_S_ (ix3 b t c) (2 : Fin 3) ?_).trans pad_value
  show ¬(50 ≤ c.val ∧ (c.val - 50) % (0 + 1) = 0 ∧ (c.val - 50) / (0 + 1) < 512)
  omega

end Cert.RefSide

end
-- ==== Proof.RefA3.lean ====
/-
  The projection read at an index: the joined channels read the first spatial mean below 1024 and the second from 1024
  on, so the product with the weights over the 2048 channels is the joined sum of the specification.
-/
import proofs.«107050_j21998822490744_2_alg».proof.Proof.Gen.ReferenceIdeal.Read
import proofs.«107050_j21998822490744_2_alg».proof.Proof.Spec

noncomputable section

namespace Cert.RefSide

open Cert.ReferenceIdeal Cert.ReferenceIdeal.Gen Cert.ReferenceIdeal.Read Idealize.ShloMosaic Idealize.ShloMosaic.ValueIdx

/-- A joined channel below 1024 reads the first mean. -/
theorem v6_lo (x0 x1 : (⟨S4x1024x512x4x4, .f32⟩ : BufTy).Contents (Elt Ideal)) (b : Fin 4) (c : Fin 2048) (t : Fin 512)
    (h : c.val < 1024) :
    val_main_v6 (F := Ideal) x0 x1 (ix3 b c t) = val_main_v2 (F := Ideal) x0 (ix3 b (⟨c.val, h⟩ : Fin 1024) t) := by
  unfold val_main_v6
  exact concatenate_pair_apply_left (1 : Fin 3) (val_main_v2 (F := Ideal) x0) (val_main_v5 (F := Ideal) x1)
    Facts₀.concatenates_S4x1024x512_S4x1024x512_S4x2048x512_d1 (ix3 b c t) rfl (ix3 b (⟨c.val, h⟩ : Fin 1024) t)
    (fun a => match a with
      | ⟨0, _⟩ => rfl
      | ⟨1, _⟩ => rfl
      | ⟨2, _⟩ => rfl)

/-- A joined channel from 1024 on reads the second mean, 1024 less. -/
theorem v6_hi (x0 x1 : (⟨S4x1024x512x4x4, .f32⟩ : BufTy).Contents (Elt Ideal)) (b : Fin 4) (c : Fin 2048) (t : Fin 512)
    (h : ¬ c.val < 1024) :
    val_main_v6 (F := Ideal) x0 x1 (ix3 b c t)
      = val_main_v5 (F := Ideal) x1 (ix3 b (⟨c.val - 1024, by omega⟩ : Fin 1024) t) := by
  unfold val_main_v6
  exact concatenate_pair_apply_right (1 : Fin 3) (val_main_v2 (F := Ideal) x0) (val_main_v5 (F := Ideal) x1)
    Facts₀.concatenates_S4x1024x512_S4x1024x512_S4x2048x512_d1 (ix3 b c t) rfl rfl
    (ix3 b (⟨c.val - 1024, by omega⟩ : Fin 1024) t)
    (fun a ha => match a, ha with
      | ⟨0, _⟩, _ => rfl
      | ⟨1, _⟩, ha => absurd rfl ha
      | ⟨2, _⟩, _ => rfl)
    (by show c.val - 1024 + 1024 = c.val; omega)

/-- The joined channels are the specification's. -/
theorem v6_feat (x0 x1 : (⟨S4x1024x512x4x4, .f32⟩ : BufTy).Contents (Elt Ideal)) (b : Fin 4) (c : Fin 2048) (t : Fin 512) :
    val_main_v6 (F := Ideal) x0 x1 (ix3 b c t)
      = Cert.Spec.feat (val_main_v2 (F := Ideal) x0) (val_main_v5 (F := Ideal) x1) b c t := by
  unfold Cert.Spec.feat
  by_cases h : c.val < 1024
  · rw [dif_pos h]; exact v6_lo x0 x1 b c t h
  · rw [dif_neg h]; exact v6_hi x0 x1 b c t h

/-- The projection at (b, t, d) is the joined sum. -/
theorem v8_at (x0 x1 : (⟨S4x1024x512x4x4, .f32⟩ : BufTy).Contents (Elt Ideal)) (x2 : (⟨S128x2048, .f32⟩ : BufTy).Contents (Elt Ideal))
    (b : Fin 4) (t : Fin 512) (d : Fin 128) :
    val_main_v8 (F := Ideal) x0 x1 x2 (ix3 b t d)
      = Cert.Spec.projJoined (val_main_v2 (F := Ideal) x0) (val_main_v5 (F := Ideal) x1) x2 b t d := by
  rw [val_main_v8_apply]
  unfold Cert.Spec.projJoined
  refine Finset.sum_congr rfl fun c _ => ?_
  rw [val_main_v7_apply]
  have e1 : idx_main_v7 (lidx_main_v8 (ix3 b t d) c) = ix3 b c t := funext fun a => match a with
    | ⟨0, _⟩ => rfl
    | ⟨1, _⟩ => rfl
    | ⟨2, _⟩ => rfl
  have e2 : ridx_main_v8 (ix3 b t d) c = ix2 d c := funext fun a => match a with
    | ⟨0, _⟩ => rfl
    | ⟨1, _⟩ => rfl
  rw [e1, e2, v6_feat]

end Cert.RefSide

end
-- ==== Proof.RefA4.lean ====
/-
  Per batch, over the projection: the squared row norm, the clipped norm, the normalised rows and the similarity of two
  rows, each read at an index and stated over the specification's projection.
-/
import proofs.«107050_j21998822490744_2_alg».proof.Proof.RefA3

noncomputable section

namespace Cert.RefSide

open Cert.ReferenceIdeal Cert.ReferenceIdeal.Gen Cert.ReferenceIdeal.Read Idealize.ShloMosaic Idealize.ShloMosaic.ValueIdx

/-- The projection of the reference, as the specification's joined sum over the two spatial means. -/
abbrev PJ (x0 x1 : (⟨S4x1024x512x4x4, .f32⟩ : BufTy).Contents (Elt Ideal)) (x2 : (⟨S128x2048, .f32⟩ : BufTy).Contents (Elt Ideal)) :
    Fin 4 → Fin 512 → Fin 128 → EReal :=
  Cert.Spec.projJoined (val_main_v2 (F := Ideal) x0) (val_main_v5 (F := Ideal) x1) x2

/-- The squared row norm. -/
theorem v10_at (x0 x1 : (⟨S4x1024x512x4x4, .f32⟩ : BufTy).Contents (Elt Ideal)) (x2 : (⟨S128x2048, .f32⟩ : BufTy).Contents (Elt Ideal))
    (b : Fin 4) (t : Fin 512) :
    val_main_v10 (F := Ideal) x0 x1 x2 (ix2 b t) = ∑ d : Fin 128, PJ x0 x1 x2 b t d * PJ x0 x1 x2 b t d := by
  rw [val_main_v10_apply, val_main_cst_3_apply, Ideal.ofBits_def, Ideal.ofBits_zero_f32, zero_add]
  refine Finset.sum_congr rfl fun k _ => ?_
  rw [val_main_v9_apply, Ideal.mulf_def]
  have e : idx_main_v10 (ix2 b t) k = ix3 b t k := funext fun a => match a with
    | ⟨0, _⟩ => rfl
    | ⟨1, _⟩ => rfl
    | ⟨2, _⟩ => rfl
  rw [e, v8_at]

/-- The clipped row norm. -/
theorem v14_at (x0 x1 : (⟨S4x1024x512x4x4, .f32⟩ : BufTy).Contents (Elt Ideal)) (x2 : (⟨S128x2048, .f32⟩ : BufTy).Contents (Elt Ideal))
    (b : Fin 4) (t : Fin 512) (z : Fin 1) :
    val_main_v14 (F := Ideal) x0 x1 x2 (ix3 b t z) = Cert.Spec.nrm (PJ x0 x1 x2 b) t := by
  rw [val_main_v14_apply, val_main_v12_apply, val_main_v11_apply, val_main_v13_apply, val_main_cst_4_apply,
    Ideal.maximumf_def, Ideal.hostUnary_sqrt_def, Ideal.ofBits_def]
  have e : idx_main_v11 (ix3 b t z) = ix2 b t := funext fun a => match a with
    | ⟨0, _⟩ => rfl
    | ⟨1, _⟩ => rfl
  rw [e, v10_at]
  rfl

/-- The normalised rows. -/
theorem v16_at (x0 x1 : (⟨S4x1024x512x4x4, .f32⟩ : BufTy).Contents (Elt Ideal)) (x2 : (⟨S128x2048, .f32⟩ : BufTy).Contents (Elt Ideal))
    (b : Fin 4) (t : Fin 512) (d : Fin 128) :
    val_main_v16 (F := Ideal) x0 x1 x2 (ix3 b t d) = Cert.Spec.xn (PJ x0 x1 x2 b) t d := by
  rw [val_main_v16_apply, val_main_v15_apply, Ideal.hostDivf_def, v8_at]
  have e : idx_main_v15 (ix3 b t d) = ix3 b t (⟨0, Nat.one_pos⟩ : Fin 1) := funext fun a => match a with
    | ⟨0, _⟩ => rfl
    | ⟨1, _⟩ => rfl
    | ⟨2, _⟩ => rfl
  rw [e, v14_at]
  rfl

/-- Row t against row s. -/
theorem v17_at (x0 x1 : (⟨S4x1024x512x4x4, .f32⟩ : BufTy).Contents (Elt Ideal)) (x2 : (⟨S128x2048, .f32⟩ : BufTy).Contents (Elt Ideal))
    (b : Fin 4) (t s : Fin 512) :
    val_main_v17 (F := Ideal) x0 x1 x2 (ix3 b t s) = Cert.Spec.sim (PJ x0 x1 x2 b) t s := by
  rw [val_main_v17_apply]
  unfold Cert.Spec.sim
  refine Finset.sum_congr rfl fun k _ => ?_
  have el : lidx_main_v17 (ix3 b t s) k = ix3 b t k := funext fun a => match a with
    | ⟨0, _⟩ => rfl
    | ⟨1, _⟩ => rfl
    | ⟨2, _⟩ => rfl
  have er : ridx_main_v17 (ix3 b t s) k = ix3 b s k := funext fun a => match a with
    | ⟨0, _⟩ => rfl
    | ⟨1, _⟩ => rfl
    | ⟨2, _⟩ => rfl
  rw [el, er, v16_at, v16_at]

end Cert.RefSide

end
-- ==== Proof.RefValue.lean ====
/-
  The reference's result is the specification's result over the joined projection of the two spatial means:
  the gathered windows are the windowed similarity, their product with the window weights plus the bias, clipped
  below by zero, is the output.
-/
import proofs.«107050_j21998822490744_2_alg».proof.Proof.RefA2
import proofs.«107050_j21998822490744_2_alg».proof.Proof.RefA4

noncomputable section

namespace Cert.RefSide

open Cert.ReferenceIdeal Cert.ReferenceIdeal.Gen Cert.ReferenceIdeal.Read Idealize.ShloMosaic Idealize.ShloMosaic.ValueIdx

/-- The gathered windows are the windowed similarity. -/
theorem v40_win (x0 x1 : (⟨S4x1024x512x4x4, .f32⟩ : BufTy).Contents (Elt Ideal)) (x2 : (⟨S128x2048, .f32⟩ : BufTy).Contents (Elt Ideal))
    (b : Fin 4) (t : Fin 512) (l : Fin 101) :
    val_main_v40 (F := Ideal) x0 x1 x2 (ix3 b t l) = Cert.Spec.win (PJ x0 x1 x2 b) t l := by
  rw [v40_at]
  unfold Cert.Spec.win
  by_cases h : 50 ≤ t.val + l.val ∧ t.val + l.val < 562
  · rw [dif_pos h]
    refine (v18_inside x0 x1 x2 b t (⟨t.val + l.val, by omega⟩ : Fin 612) (⟨t.val + l.val - 50, by omega⟩ : Fin 512)
      (by show t.val + l.val = 50 + (t.val + l.val - 50); omega)).trans ?_
    exact v17_at x0 x1 x2 b t _
  · rw [dif_neg h]
    exact v18_outside x0 x1 x2 b t (⟨t.val + l.val, by omega⟩ : Fin 612) h

/-- The reference's result at (b, t, o). -/
theorem v45_at (x0 x1 : (⟨S4x1024x512x4x4, .f32⟩ : BufTy).Contents (Elt Ideal)) (x2 : (⟨S128x2048, .f32⟩ : BufTy).Contents (Elt Ideal))
    (x3 : (⟨S128x101, .f32⟩ : BufTy).Contents (Elt Ideal)) (x4 : (⟨S128, .f32⟩ : BufTy).Contents (Elt Ideal))
    (b : Fin 4) (t : Fin 512) (o : Fin 128) :
    val_main_v45 (F := Ideal) x0 x1 x2 x3 x4 (ix3 b t o) = Cert.Spec.out2 (PJ x0 x1 x2 b) x3 x4 t o := by
  rw [val_main_v45_apply, val_main_v44_apply, val_main_call1_v0_apply, val_main_call1_cst_apply, val_main_v43_apply,
    val_main_v42_apply, val_main_v41_apply, Ideal.maximumf_def, Ideal.addf_def, Ideal.ofBits_def, Ideal.ofBits_zero_f32]
  unfold Cert.Spec.out2
  refine congrArg (fun z => max z (0 : EReal)) (congrArg₂ (· + ·) (Finset.sum_congr rfl fun k _ => ?_) (congrArg x4 ?_))
  · have el : lidx_main_v41 (ix3 b t o) k = ix3 b t k := funext fun a => match a with
      | ⟨0, _⟩ => rfl
      | ⟨1, _⟩ => rfl
      | ⟨2, _⟩ => rfl
    have er : ridx_main_v41 (ix3 b t o) k = ix2 o k := funext fun a => match a with
      | ⟨0, _⟩ => rfl
      | ⟨1, _⟩ => rfl
    rw [el, er, v40_win]
  · exact funext fun a => match a with
      | ⟨0, _⟩ => rfl

/-- THE REFERENCE SIDE: the reference's result is the specification's result over the joined projection. -/
theorem ref_result (x0 x1 : (⟨S4x1024x512x4x4, .f32⟩ : BufTy).Contents (Elt Ideal)) (x2 : (⟨S128x2048, .f32⟩ : BufTy).Contents (Elt Ideal))
    (x3 : (⟨S128x101, .f32⟩ : BufTy).Contents (Elt Ideal)) (x4 : (⟨S128, .f32⟩ : BufTy).Contents (Elt Ideal)) :
    val_main_v45 (F := Ideal) x0 x1 x2 x3 x4
      = Cert.Spec.result (Cert.Spec.projJoined (val_main_v2 (F := Ideal) x0) (val_main_v5 (F := Ideal) x1) x2) x3 x4 := by
  funext i
  obtain ⟨b, t, o, rfl⟩ : ∃ (b : Fin 4) (t : Fin 512) (o : Fin 128), i = ix3 b t o := ⟨i 0, i 1, i 2, eq_ix3 i⟩
  exact v45_at x0 x1 x2 x3 x4 b t o

end Cert.RefSide

end
-- ==== Proof.ProjLaw.lean ====
/-
  The projection's two groupings agree: one sum over the 2048 joined channels equals the eight tiles of 128 channels,
  each tile its first-array part plus its second-array part. Extended reals are an additive commutative monoid, so a
  finite sum may be regrouped freely.
-/
import proofs.«107050_j21998822490744_2_alg».proof.Proof.Spec

noncomputable section

namespace Cert.Spec

open Idealize.ShloMosaic Idealize.ShloMosaic.ValueIdx

/-- A sum over 1024 positions is the sum over 8 blocks of the sums over the 128 positions of each block. -/
theorem sum_blocks {M : Type*} [AddCommMonoid M] (h : Fin 1024 → M) :
    ∑ c : Fin 1024, h c = ∑ k : Fin 8, ∑ c : Fin 128, h ⟨128 * k.val + c.val, by omega⟩ := by
  have e := Equiv.sum_comp (finProdFinEquiv (m := 8) (n := 128)) h
  rw [Fintype.sum_prod_type] at e
  rw [← e]
  refine Finset.sum_congr rfl fun k _ => Finset.sum_congr rfl fun c _ => ?_
  refine congrArg h (Fin.ext ?_)
  show c.val + 128 * k.val = 128 * k.val + c.val
  omega

/-- A sum over 2048 positions is the sum over the first 1024 plus the sum over the last 1024. -/
theorem sum_halves {M : Type*} [AddCommMonoid M] (g : Fin 2048 → M) :
    ∑ c : Fin 2048, g c
      = (∑ c : Fin 1024, g ⟨c.val, by omega⟩) + ∑ c : Fin 1024, g ⟨1024 + c.val, by omega⟩ :=
  Fin.sum_univ_add (a := 1024) (b := 1024) g

/-- A joined channel below 1024 is the first array's channel. -/
theorem feat_lo (f1 f2 : A3 4 1024 512) (b : Fin 4) (t : Fin 512) (c : Fin 1024) :
    feat f1 f2 b ⟨c.val, by omega⟩ t = f1 (ix3 b c t) := by
  unfold feat
  rw [dif_pos (show (⟨c.val, by omega⟩ : Fin 2048).val < 1024 from c.isLt)]

/-- A joined channel from 1024 on is the second array's channel, 1024 less. -/
theorem feat_hi (f1 f2 : A3 4 1024 512) (b : Fin 4) (t : Fin 512) (c : Fin 1024) :
    feat f1 f2 b ⟨1024 + c.val, by omega⟩ t = f2 (ix3 b c t) := by
  unfold feat
  rw [dif_neg (show ¬ (⟨1024 + c.val, by omega⟩ : Fin 2048).val < 1024 from by show ¬ 1024 + c.val < 1024; omega)]
  refine congrArg (fun z => f2 (ix3 b z t)) (Fin.ext ?_)
  show 1024 + c.val - 1024 = c.val
  omega

/-- The joined sum as the first array's 1024 channels plus the second array's. -/
theorem projJoined_halves (f1 f2 : A3 4 1024 512) (wp : A2 128 2048) (b : Fin 4) (t : Fin 512) (d : Fin 128) :
    projJoined f1 f2 wp b t d
      = (∑ c : Fin 1024, f1 (ix3 b c t) * wp (ix2 d ⟨c.val, by omega⟩))
        + ∑ c : Fin 1024, f2 (ix3 b c t) * wp (ix2 d ⟨1024 + c.val, by omega⟩) := by
  unfold projJoined
  rw [sum_halves]
  refine congrArg₂ (· + ·) (Finset.sum_congr rfl fun c _ => ?_) (Finset.sum_congr rfl fun c _ => ?_)
  · rw [feat_lo]
  · rw [feat_hi]

theorem projTiled_eq_projJoined (f1 f2 : A3 4 1024 512) (wp : A2 128 2048) (b : Fin 4) (t : Fin 512) (d : Fin 128) :
    projTiled f1 f2 wp b t d = projJoined f1 f2 wp b t d := by
  rw [projJoined_halves, sum_blocks, sum_blocks]
  unfold projTiled tile
  rw [Finset.sum_add_distrib]
  refine congrArg₂ (· + ·) (Finset.sum_congr rfl fun k _ => Finset.sum_congr rfl fun c _ => ?_)
    (Finset.sum_congr rfl fun k _ => Finset.sum_congr rfl fun c _ => ?_)
  · rfl
  · refine congrArg (fun z => f2 (ix3 b ⟨128 * k.val + c.val, by omega⟩ t) * wp (ix2 d z)) (Fin.ext ?_)
    show 1024 + 128 * k.val + c.val = 1024 + (128 * k.val + c.val)
    omega

end Cert.Spec

end
-- ==== Proof.KI.Assemble.lean ====
/-
  The two programs compute one function.

  The kernel program, read through its run: the result buffer ends as the second region's output array; that array is
  the per-batch output of the projected features the first region left; those are the eight channel tiles summed, over
  the two spatial means and the two halves of the projection weights the host operations prepared. The reference's
  run ends at the same per-batch output of the projection as ONE sum over the 2048 joined channels. Regrouping a
  finite sum of extended reals (addition there is commutative and associative) joins the two.
-/
import proofs.«107050_j21998822490744_2_alg».proof.Proof.KI.Whole
import proofs.«107050_j21998822490744_2_alg».proof.Proof.KI.Val0
import proofs.«107050_j21998822490744_2_alg».proof.Proof.KI.Val1
import proofs.«107050_j21998822490744_2_alg».proof.Proof.KI.Pre
import proofs.«107050_j21998822490744_2_alg».proof.Proof.RefValue
import proofs.«107050_j21998822490744_2_alg».proof.Proof.ProjLaw

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The two spatial means and the three weight arrays, from the launch memory. -/
abbrev mF1 (c : Dev nD) : Cert.Spec.A3 4 1024 512 := Cert.ReferenceIdeal.Read.val_main_v2 (F := Ideal) (m ((c : Thread nD τ).loc main_arg0))
abbrev mF2 (c : Dev nD) : Cert.Spec.A3 4 1024 512 := Cert.ReferenceIdeal.Read.val_main_v5 (F := Ideal) (m ((c : Thread nD τ).loc main_arg1))
abbrev mWp (c : Dev nD) : Cert.Spec.A2 128 2048 := m ((c : Thread nD τ).loc main_arg2)
abbrev mWfc (c : Dev nD) : Cert.Spec.A2 128 101 := m ((c : Thread nD τ).loc main_arg3)
abbrev mBfc (c : Dev nD) : Cert.Spec.A1 128 := m ((c : Thread nD τ).loc main_arg4)

/-- The function both programs end at. -/
def theResult (c : Dev nD) : Cert.Spec.A3 4 512 128 :=
  Cert.Spec.result (Cert.Spec.projJoined (mF1 m c) (mF2 m c) (mWp m c)) (mWfc m c) (mBfc m c)

/-- A tile over the arrays the first region finds is the specification's tile over the launch memory. -/
theorem tile_eq (c : Dev nD) (b : Fin 4) (k : Fin 8) (t : Fin 512) (d : Fin 128) :
    tileV (E1 m) c b k t d = Cert.Spec.tile (mF1 m c) (mF2 m c) (mWp m c) b t d k := by
  have h2 : aF1 (E1 m) c = mF1 m c := pre_v2 m c
  have h5 : aF2 (E1 m) c = mF2 m c := pre_v5 m c
  have h6 : ∀ (d : Fin 128) (cc : Fin 1024), aW1 (E1 m) c (ix2 d cc) = mWp m c (ix2 d (⟨cc.val, by omega⟩ : Fin 2048)) := pre_v6 m c
  have h7 : ∀ (d : Fin 128) (cc : Fin 1024), aW2 (E1 m) c (ix2 d cc) = mWp m c (ix2 d (⟨1024 + cc.val, by omega⟩ : Fin 2048)) := pre_v7 m c
  unfold tileV Cert.Spec.tile
  refine congrArg₂ (· + ·) (Finset.sum_congr rfl fun cc _ => ?_) (Finset.sum_congr rfl fun cc _ => ?_)
  · rw [h2, h6]
  · rw [h5, h7]
    exact congrArg (fun j : Fin 2048 => mF2 m c (ix3 b (⟨128 * k.val + cc.val, by omega⟩ : Fin 1024) t) * mWp m c (ix2 d j))
      (Fin.ext (by show 1024 + (128 * k.val + cc.val) = 1024 + 128 * k.val + cc.val; omega))

/-- The eight tiles summed are the projection as one sum over the joined channels. -/
theorem proj_eq (c : Dev nD) (b : Fin 4) (t : Fin 512) (d : Fin 128) :
    G0 (E1 m) c (ix3 b t d) = Cert.Spec.projJoined (mF1 m c) (mF2 m c) (mWp m c) b t d := by
  rw [← Cert.Spec.projTiled_eq_projJoined]
  unfold G0 Cert.Spec.projTiled
  exact Finset.sum_congr rfl fun k _ => tile_eq m c b k t d

/-- What the second region finds in the projected-features array: what the first region left. -/
theorem E2_v8 (c : Dev nD) : (E2 m c main_v8 : S4x512x128.Idx → EReal) = G0 (E1 m) c :=
  (W2_arr m c 4).trans (final0 (E1 m) c)

/-- The window weights and the bias reach the second region as launched. -/
theorem E2_arg3 (c : Dev nD) : E2 m c main_arg3 = m ((c : Thread nD τ).loc main_arg3) :=
  (W2_of_ne m c main_arg3 (by decide)).trans <| (V1_of m c main_arg3 (by decide)).trans rfl
theorem E2_arg4 (c : Dev nD) : E2 m c main_arg4 = m ((c : Thread nD τ).loc main_arg4) :=
  (W2_of_ne m c main_arg4 (by decide)).trans <| (V1_of m c main_arg4 (by decide)).trans rfl

/-- THE KERNEL PROGRAM'S RESULT, at the end of its run. -/
theorem kernel_result (c : Dev nD) : (B3 m c (Proc.devRef .tc main_v9) : S4x512x128.Idx → EReal) = theResult m c := by
  have h : (B3 m c (Proc.devRef .tc main_v9) : S4x512x128.Idx → EReal) = G1 (E2 m) c := (result_eq m c).trans (final1 (E2 m) c)
  rw [h]
  funext i
  unfold G1 theResult Cert.Spec.result
  rw [E2_arg3 m c, E2_arg4 m c]
  refine congrArg (fun p => Cert.Spec.out2 p (mWfc m c) (mBfc m c) (i 1) (i 2)) ?_
  funext t d
  exact (congrFun (E2_v8 m c) _).trans (proj_eq m c (i 0) t d)

/-- The kernel program's run with its result named: every weakly fair execution terminates, the result buffer at the
    common function, the five argument arrays as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v9) = theResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v9 (by decide))).trans (kernel_result m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Hand

end
-- ==== Proof.lean ====
/-
  The certificate's five claims.

  The kernel program is two pallas_calls after a stretch of host operations: the spatial means of the two inputs and
  the two halves of the projection weights are prepared on the host; the first call accumulates, per batch, the
  projection of the 2048 joined channels in eight tiles of 128 channels (an accumulator reset at a batch's first
  tile and copied out at its last); the second call normalises each projected row, takes the 101 windowed
  similarities of row t with rows t-50 … t+50 (zero where that row does not exist), applies the window weights, adds
  the bias and clips at zero. The reference does the same with ONE sum over the 2048 channels and a zero-padded
  banded gather of the full similarity matrix.

  Frames: each kernel program's run is built region by region (the body of each call run once per control case, the
  accumulator carried in the first region's invariant), at the word-level instance and at the ideal one alike; the
  reference's is its generated run. The idealization rewrote nothing, so there is nothing to preserve. At the ideal
  instance both results are one function of the arguments: the eight tiles regroup into the one sum (addition of
  extended reals is commutative and associative, so no finiteness is needed), and the rolled, masked columns are the
  padded gather's entries.
-/
import proofs.«107050_j21998822490744_2_alg».proof.Defs
import proofs.«107050_j21998822490744_2_alg».proof.Proof.Gen.Kernel
import proofs.«107050_j21998822490744_2_alg».proof.Proof.Gen.KernelIdeal
import proofs.«107050_j21998822490744_2_alg».proof.Proof.Gen.ReferenceIdeal
import proofs.«107050_j21998822490744_2_alg».proof.Proof.Gen.Pre_finite_inputs
import proofs.«107050_j21998822490744_2_alg».proof.Proof.Gen.ReferenceIdeal.Run
import proofs.«107050_j21998822490744_2_alg».proof.Proof.Gen.ReferenceIdeal.Read
import proofs.«107050_j21998822490744_2_alg».proof.Proof.KB.Whole
import proofs.«107050_j21998822490744_2_alg».proof.Proof.KI.Assemble
import proofs.«107050_j21998822490744_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the common function of the (agreeing) arguments. -/
theorem algebraic : Cert.algebraic_KernelIdeal_ReferenceIdeal := by
  intro m ρ m' ρ' _ hagree
  refine ⟨fun c => Cert.KernelIdeal.Hand.theResult m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.RefSide.ref_result,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
